-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v90) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x800000 32) (main_arg8 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S64 : Shape := ⟨1, ![64]⟩
abbrev S50000x1 : Shape := ⟨2, ![50000, 1]⟩
abbrev S1 : Shape := ⟨1, ![1]⟩
abbrev S63 : Shape := ⟨1, ![63]⟩
abbrev S64x128 : Shape := ⟨2, ![64, 128]⟩
abbrev S64x1 : Shape := ⟨2, ![64, 1]⟩

abbrev nBuf : Space → Nat
  | .hbm => 135
  | .vmem => 30
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x800000, .i32⟩
  | 8 => ⟨S50000, .i32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x128, .f32⟩
  | 81 => ⟨S850000x1, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S50000x128, .f32⟩
  | 90 => ⟨S50000x128, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x128, .f32⟩
  | 100 => ⟨S850000x1, .f32⟩
  | 101 => ⟨S850000x128, .f32⟩
  | 102 => ⟨S850000x128, .f32⟩
  | 103 => ⟨S_, .f32⟩
  | 104 => ⟨S50000x128, .f32⟩
  | 105 => ⟨S850000x1, .i32⟩
  | 106 => ⟨S50000x128, .f32⟩
  | 107 => ⟨S1x128, .f32⟩
  | 108 => ⟨S50000x128, .f32⟩
  | 109 => ⟨S_, .i32⟩
  | 110 => ⟨S50000, .i32⟩
  | 111 => ⟨S_, .i32⟩
  | 112 => ⟨S64, .i32⟩
  | 113 => ⟨S50000x1, .i32⟩
  | 114 => ⟨S64, .i32⟩
  | 115 => ⟨S_, .i32⟩
  | 116 => ⟨S1, .i32⟩
  | 117 => ⟨S_, .i32⟩
  | 118 => ⟨S_, .i32⟩
  | 119 => ⟨S64, .i32⟩
  | 120 => ⟨S63, .i32⟩
  | 121 => ⟨S64, .i32⟩
  | 122 => ⟨S_, .f32⟩
  | 123 => ⟨S64x128, .f32⟩
  | 124 => ⟨S50000x1, .i32⟩
  | 125 => ⟨S64x128, .f32⟩
  | 126 => ⟨S_, .i32⟩
  | 127 => ⟨S64, .i32⟩
  | _ => ⟨S50000x128, .f32⟩

abbrev hbmTy0_1 (i : Nat) : BufTy := match i % 128 with
  | 0 => ⟨S64, .i1⟩
  | 1 => ⟨S_, .i32⟩
  | 2 => ⟨S64, .i32⟩
  | 3 => ⟨S64, .i32⟩
  | 4 => ⟨S64, .i32⟩
  | 5 => ⟨S64x1, .i32⟩
  | 6 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_18 : Ref sig .tc := ⟨.hbm, 115, rfl⟩
abbrev main_v84 : Ref sig .tc := ⟨.hbm, 116, rfl⟩
abbrev main_call1_call0_c : Ref sig .tc := ⟨.hbm, 117, rfl⟩
abbrev main_call1_call0_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_20 : Ref sig .tc := ⟨.hbm, 126, rfl⟩
abbrev main_v91 : Ref sig .tc := ⟨.hbm, 127, rfl⟩
abbrev main_v92 : Ref sig .tc := ⟨.hbm, 128, rfl⟩
abbrev main_c_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64 : S_.BroadcastsInDim S64 (![] : Fin 0 → Fin S64.rank)
  bcast_S50000_S50000x1_0 : S50000.BroadcastsInDim S50000x1 (![0] : Fin 1 → Fin S50000x1.rank)
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  slices_S64_S63_0 : S64.Slices ![0] S63
  concatenates_S1_S63_S64_d0 : Shape.Concatenates [S1, S63] S64 0
  bcast_S_S64x128 : S_.BroadcastsInDim S64x128 (![] : Fin 0 → Fin S64x128.rank)
  bcast_S64_S64x1_0 : S64.BroadcastsInDim S64x1 (![0] : Fin 1 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  gather_S50000x128_S64x1_S64x128_1_0_n_n_0_1_1128_wf : GatherDims.WF S50000x128 S64x1 S64x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def gather_S50000x128_S64x1_S64x128_1_0_n_n_0_1_1128 : GatherDims S50000x128 S64x1 S64x128 where
  offsetDims := [1]
  collapsedSliceDims := [0]
  operandBatchingDims := []
  startIndicesBatchingDims := []
  startIndexMap := [0]
  indexVectorDim := 1
  sliceSizes := ![1, 128]
  wf := gather_S50000x128_S64x1_S64x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64 : Shape := ⟨1, ![64]⟩
abbrev S50000x1 : Shape := ⟨2, ![50000, 1]⟩
abbrev S1 : Shape := ⟨1, ![1]⟩
abbrev S63 : Shape := ⟨1, ![63]⟩
abbrev S64x128 : Shape := ⟨2, ![64, 128]⟩
abbrev S64x1 : Shape := ⟨2, ![64, 1]⟩

abbrev nBuf : Space → Nat
  | .hbm => 226
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x800000, .i32⟩
  | 8 => ⟨S50000, .i32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S50000x128, .f32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S_, .f32⟩
  | 74 => ⟨S50000x128, .f32⟩
  | 75 => ⟨S50000x128, .i1⟩
  | 76 => ⟨S_, .f32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S_, .f32⟩
  | 91 => ⟨S50000, .f32⟩
  | 92 => ⟨S50000, .f32⟩
  | 93 => ⟨S50000, .f32⟩
  | 94 => ⟨S_, .f32⟩
  | 95 => ⟨S_, .f32⟩
  | 96 => ⟨S50000, .f32⟩
  | 97 => ⟨S50000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S850000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S850000x1, .f32⟩
  | 127 => ⟨S850000x128, .f32⟩
  | _ => ⟨S50000x128, .f32⟩

abbrev hbmTy0_1 (i : Nat) : BufTy := match i % 128 with
  | 0 => ⟨S850000x128, .f32⟩
  | 1 => ⟨S_, .f32⟩
  | 2 => ⟨S50000x128, .f32⟩
  | 3 => ⟨S850000x1, .i32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S_, .f32⟩
  | 10 => ⟨S50000x128, .f32⟩
  | 11 => ⟨S50000x128, .i1⟩
  | 12 => ⟨S_, .f32⟩
  | 13 => ⟨S50000x128, .f32⟩
  | 14 => ⟨S50000x128, .f32⟩
  | 15 => ⟨S50000x128, .f32⟩
  | 16 => ⟨S50000x128, .f32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .i32⟩
  | 73 => ⟨S50000, .i32⟩
  | 74 => ⟨S_, .i32⟩
  | 75 => ⟨S64, .i32⟩
  | 76 => ⟨S50000x1, .i32⟩
  | 77 => ⟨S64, .i32⟩
  | 78 => ⟨S_, .i32⟩
  | 79 => ⟨S1, .i32⟩
  | 80 => ⟨S_, .i32⟩
  | 81 => ⟨S_, .i32⟩
  | 82 => ⟨S64, .i32⟩
  | 83 => ⟨S63, .i32⟩
  | 84 => ⟨S64, .i32⟩
  | 85 => ⟨S_, .f32⟩
  | 86 => ⟨S64x128, .f32⟩
  | 87 => ⟨S50000x1, .i32⟩
  | 88 => ⟨S64x128, .f32⟩
  | 89 => ⟨S_, .i32⟩
  | 90 => ⟨S64, .i32⟩
  | 91 => ⟨S64, .i1⟩
  | 92 => ⟨S_, .i32⟩
  | 93 => ⟨S64, .i32⟩
  | 94 => ⟨S64, .i32⟩
  | 95 => ⟨S64, .i32⟩
  | 96 => ⟨S64x1, .i32⟩
  | 97 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_cst_12 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_13 : Ref sig .tc := ⟨.hbm, 87, rfl⟩
abbrev main_v55 : Ref sig .tc := ⟨.hbm, 88, rfl⟩
abbrev main_v56 : Ref sig .tc := ⟨.hbm, 89, rfl⟩
abbrev main_cst_14 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_15 : Ref sig .tc := ⟨.hbm, 94, rfl⟩
abbrev main_call2_v0 : Ref sig .tc := ⟨.hbm, 95, rfl⟩
abbrev main_call2_v1 : Ref sig .tc := ⟨.hbm, 96, rfl⟩
abbrev main_v60 : Ref sig .tc := ⟨.hbm, 97, rfl⟩
abbrev main_c_16 : Ref sig .tc := ⟨.hbm, 98, rfl⟩
abbrev main_v61 : Ref sig .tc := ⟨.hbm, 99, rfl⟩
abbrev main_v62 : Ref sig .tc := ⟨.hbm, 100, rfl⟩
abbrev main_c_17 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_18 : Ref sig .tc := ⟨.hbm, 107, rfl⟩
abbrev main_v68 : Ref sig .tc := ⟨.hbm, 108, rfl⟩
abbrev main_v69 : Ref sig .tc := ⟨.hbm, 109, rfl⟩
abbrev main_c_19 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_20 : Ref sig .tc := ⟨.hbm, 117, rfl⟩
abbrev main_v76 : Ref sig .tc := ⟨.hbm, 118, rfl⟩
abbrev main_v77 : Ref sig .tc := ⟨.hbm, 119, rfl⟩
abbrev main_c_21 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_22 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_23 : Ref sig .tc := ⟨.hbm, 136, rfl⟩
abbrev main_call3_cst : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_v92 : Ref sig .tc := ⟨.hbm, 143, rfl⟩
abbrev main_v93 : Ref sig .tc := ⟨.hbm, 144, rfl⟩
abbrev main_cst_24 : Ref sig .tc := ⟨.hbm, 145, rfl⟩
abbrev main_v94 : Ref sig .tc := ⟨.hbm, 146, rfl⟩
abbrev main_cst_25 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_26 : Ref sig .tc := ⟨.hbm, 151, rfl⟩
abbrev main_v98 : Ref sig .tc := ⟨.hbm, 152, rfl⟩
abbrev main_v99 : Ref sig .tc := ⟨.hbm, 153, rfl⟩
abbrev main_cst_27 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_28 : Ref sig .tc := ⟨.hbm, 158, rfl⟩
abbrev main_call4_v0 : Ref sig .tc := ⟨.hbm, 159, rfl⟩
abbrev main_call4_v1 : Ref sig .tc := ⟨.hbm, 160, rfl⟩
abbrev main_v103 : Ref sig .tc := ⟨.hbm, 161, rfl⟩
abbrev main_c_29 : Ref sig .tc := ⟨.hbm, 162, rfl⟩
abbrev main_v104 : Ref sig .tc := ⟨.hbm, 163, rfl⟩
abbrev main_v105 : Ref sig .tc := ⟨.hbm, 164, rfl⟩
abbrev main_c_30 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_c_31 : Ref sig .tc := ⟨.hbm, 171, rfl⟩
abbrev main_v111 : Ref sig .tc := ⟨.hbm, 172, rfl⟩
abbrev main_v112 : Ref sig .tc := ⟨.hbm, 173, rfl⟩
abbrev main_c_32 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_c_33 : Ref sig .tc := ⟨.hbm, 181, rfl⟩
abbrev main_v119 : Ref sig .tc := ⟨.hbm, 182, rfl⟩
abbrev main_v120 : Ref sig .tc := ⟨.hbm, 183, rfl⟩
abbrev main_c_34 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_cst_35 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_c_36 : Ref sig .tc := ⟨.hbm, 200, rfl⟩
abbrev main_v135 : Ref sig .tc := ⟨.hbm, 201, rfl⟩
abbrev main_c_37 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_c_38 : Ref sig .tc := ⟨.hbm, 206, rfl⟩
abbrev main_v139 : Ref sig .tc := ⟨.hbm, 207, rfl⟩
abbrev main_call5_call0_c : Ref sig .tc := ⟨.hbm, 208, rfl⟩
abbrev main_call5_call0_v0 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_cst_39 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_c_40 : Ref sig .tc := ⟨.hbm, 217, rfl⟩
abbrev main_v146 : Ref sig .tc := ⟨.hbm, 218, rfl⟩
abbrev main_v147 : Ref sig .tc := ⟨.hbm, 219, rfl⟩
abbrev main_c_41 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S50000_S50000x1_0 : S50000.BroadcastsInDim S50000x1 (![0] : Fin 1 → Fin S50000x1.rank)
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  slices_S64_S63_0 : S64.Slices ![0] S63
  concatenates_S1_S63_S64_d0 : Shape.Concatenates [S1, S63] S64 0
  bcast_S_S64x128 : S_.BroadcastsInDim S64x128 (![] : Fin 0 → Fin S64x128.rank)
  bcast_S64_S64x1_0 : S64.BroadcastsInDim S64x1 (![0] : Fin 1 → Fin S64x1.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  gather_S50000x128_S64x1_S64x128_1_0_n_n_0_1_1128_wf : GatherDims.WF S50000x128 S64x1 S64x128 [1] [0] [] [0] [] 1 ![1, 128]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def gather_S50000x128_S64x1_S64x128_1_0_n_n_0_1_1128 : GatherDims S50000x128 S64x1 S64x128 where
  offsetDims := [1]
  collapsedSliceDims := [0]
  operandBatchingDims := []
  startIndicesBatchingDims := []
  startIndexMap := [0]
  indexVectorDim := 1
  sliceSizes := ![1, 128]
  wf := gather_S50000x128_S64x1_S64x128_1_0_n_n_0_1_1128_wf

class Facts : Prop extends Facts₀ where

variable [Facts]
-- ==== Proof.KRun.lean ====
/-
  The idealized kernel's run, with its two results named.

  The program is fifteen segments: nine stretches of host operations and six grid regions. From the launch memory the
  contents of the TensorCore's buffers are folded through the segments, a host stretch by its operations' results and a
  region by its outputs' write-backs; the fold's last value is the contents at the return. Every weakly fair execution
  terminates without a fault in a state whose unscoped buffers hold exactly those contents. Read at the two result
  buffers this names what the program returns; read at the nine argument buffers it is the launch memory, because no
  operation and no region writes an argument.
-/
import proofs.«105635_j5566277616603_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and ends with EVERY unscoped buffer of every core at the
    contents of the last segment boundary. The segments chain: each starts from the thread state the one before ends in,
    the first from the launch's buffers and the last ending with nothing owed; the final state is read against the last
    thread state, a held buffer's physical contents being its logical ones. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    -- the program is the run of its segments
    (fun c Q => by rw [main_run m ρ c])
    -- no pipeline is launched twice
    (by simp only [segs, Pipeline.Seg.pipes_host, Pipeline.Seg.pipes_region, Pipeline.Seg.pipes_nil]; decide)
    -- nothing is owed at the launch, no level is assigned off the TensorCore, nothing is dealt beside the cells' tokens
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the first thread state: the unscoped buffers at the launch contents; the last: at the last boundary's
    (T₀ := fun c => iprop(StableHlo.held (c : Thread nD τ) (Pipeline.ucRefs τ sig) (W0 m ρ c) ∗ R c)) (Tₙ := Tₙ m ρ)
    -- fifteen segments, each entered from the state the one before leaves; the last state regrouped
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        dsimp only [Pipeline.Seg.post, hseg, Pipeline.HostSeg.ofOps]
        iintro ⟨Hh, Hp, HO⟩
        isplitl [Hh Hp]
        · isplitl [Hh]; · iexact Hh
          iexact Hp
        iexact HO⟩)
    -- what the launch deals a core is the first thread state
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the final state, read against the last thread state
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The same run read at the buffers the claim names: the first node's embedding of every graph (the first result) and
    the per-graph sums (the second) at the last boundary's contents, and the nine arguments as launched. -/
theorem run : θ_run defs (onTc (τ := τ) (main (F := F))) ⟨m, fun _ => 0, ρ⟩ (fun r => ∀ c : Dev nD,
      r.2.mem ((c.tc : Thread nD τ).loc main_v97) = W15 m ρ c (Proc.devRef .tc main_v97)
      ∧ r.2.mem ((c.tc : Thread nD τ).loc main_v90) = W15 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v97 (by decide)),
     h c _ (mem_uc main_v90 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c)⟩)
    (run_all m ρ)

end Cert.KernelIdeal.KRun

end
-- ==== Proof.RefOps.lean ====
/-
  The reference program's host operations as lists, in program order, a called function's operations written at its call
  over that call's buffers. The line is cut into fourteen stages: the edge lists; then per layer the matrix product, the
  edges' normalisation coefficients, the message sums, and the bias with the activation; then the pooling.
-/
import proofs.«105635_j5566277616603_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The edge lists with the self-loops appended: the sources (row) and the targets (col) (7 operations). -/
abbrev opsA : List (HloOp τ sig (Elt F)) :=
  [ nullary main_v0 (iotaInDim S50000 32 0),
    unary main_arg7 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg7 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩

theorem opsA_fresh : (opsA : List (HloOp τ sig (Elt F))).Forall fun op => op.fresh = ∅ := by
  simp only [List.Forall]; repeat' constructor

/-- Layer 1: the features times the weights (1 operations). -/
abbrev ops1d : List (HloOp τ sig (Elt F)) :=
  [ binary main_arg0 main_arg1 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

theorem ops1d_sub : (ops1d : List (HloOp τ sig (Elt F))).Forall fun op => op.bufs ⊆ tcRefs τ sig :=
  binary_bufs_sub ..

theorem ops1d_fresh : (ops1d : List (HloOp τ sig (Elt F))).Forall fun op => op.fresh = ∅ := by
  simp only [List.Forall]; repeat' constructor

/-- Layer 1: the in-degrees, their inverse square roots, and each edge's coefficient (36 operations). -/
abbrev ops1n : List (HloOp τ sig (Elt F)) :=
  [ nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    TRef.unary (.of main_cst_3) main_call0.v0 id,
    TRef.unary main_call0.v0 main_call0.v1 (broadcastInDim S50000 ![] bcast_S_S50000),
    TRef.ternary (.of main_v13) (.of main_v16) main_call0.v1 main_call0.v2 select,
    nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v3 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v3 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)) ]

theorem ops1n_sub : (ops1n : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem ops1n_fresh : (ops1n : List (HloOp τ sig (Elt F))).Forall fun op => op.fresh = ∅ := by
  simp only [List.Forall]; repeat' constructor

/-- Layer 1: each edge's message and the sums over the edges into a node (16 operations). -/
abbrev ops1g : List (HloOp τ sig (Elt F)) :=
  [ nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v7 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

theorem ops1g_sub : (ops1g : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem ops1g_fresh : (ops1g : List (HloOp τ sig (Elt F))).Forall fun op => op.fresh = ∅ := by
  simp only [List.Forall]; repeat' constructor

/-- Layer 1: the bias added and the leaky rectifier (11 operations). -/
abbrev ops1b : List (HloOp τ sig (Elt F)) :=
  [ unary main_arg2 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3C23D70A#32),
    TRef.nullary main_call1.cst (constant S_ .f32 0x00000000#32),
    TRef.unary main_call1.cst main_call1.v0 (broadcastInDim S50000x128 ![] bcast_S_S50000x128),
    TRef.binary (.of main_v48) main_call1.v0 main_call1.v1 (cmpf .oge),
    TRef.unary (.of main_cst_10) main_call1.v2 id,
    TRef.unary main_call1.v2 main_call1.v3 (broadcastInDim S50000x128 ![] bcast_S_S50000x128),
    TRef.binary main_call1.v3 (.of main_v48) main_call1.v4 mulf,
    TRef.ternary main_call1.v1 (.of main_v48) main_call1.v4 main_call1.call0.v0 select ]

theorem ops1b_sub : (ops1b : List (HloOp τ sig (Elt F))).Forall fun op => op.bufs ⊆ tcRefs τ sig :=
  ⟨unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem ops1b_fresh : (ops1b : List (HloOp τ sig (Elt F))).Forall fun op => op.fresh = ∅ := by
  simp only [List.Forall]; repeat' constructor

/-- Layer 2: the features times the weights (1 operations). -/
abbrev ops2d : List (HloOp τ sig (Elt F)) :=
  [ binary main_v49 main_arg3 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

theorem ops2d_sub : (ops2d : List (HloOp τ sig (Elt F))).Forall fun op => op.bufs ⊆ tcRefs τ sig :=
  binary_bufs_sub ..

theorem ops2d_fresh : (ops2d : List (HloOp τ sig (Elt F))).Forall fun op => op.fresh = ∅ := by
  simp only [List.Forall]; repeat' constructor

/-- Layer 2: the edges' coefficients again (36 operations). -/
abbrev ops2n : List (HloOp τ sig (Elt F)) :=
  [ nullary main_cst_11 (constant S_ .f32 0x3F800000#32),
    unary main_cst_11 main_v51 (broadcastInDim S850000 ![] bcast_S_S850000 : (⟨S_, .f32⟩ : BufTy).Contents (Elt F) → (⟨S850000, .f32⟩ : BufTy).Contents (Elt F)),
    nullary main_cst_12 (constant S_ .f32 0x00000000#32),
    unary main_cst_12 main_v52 (broadcastInDim S50000 ![] bcast_S_S50000 : (⟨S_, .f32⟩ : BufTy).Contents (Elt F) → (⟨S50000, .f32⟩ : BufTy).Contents (Elt F)),
    unary main_v6 main_v53 (broadcastInDim S850000x1 ![0] bcast_S850000_S850000x1_0 : (⟨S850000, .i32⟩ : BufTy).Contents (Elt F) → (⟨S850000x1, .i32⟩ : BufTy).Contents (Elt F)),
    ternary main_v52 main_v53 main_v51 main_v54 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_13 (constant S_ .f32 0x00000000#32),
    unary main_cst_13 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    nullary main_cst_14 (constant S_ .f32 0x2B8CBCCC#32),
    unary main_cst_14 main_v57 (broadcastInDim S50000 ![] bcast_S_S50000 : (⟨S_, .f32⟩ : BufTy).Contents (Elt F) → (⟨S50000, .f32⟩ : BufTy).Contents (Elt F)),
    binary main_v54 main_v57 main_v58 (maximumf : (⟨S50000, .f32⟩ : BufTy).Contents (Elt F) → (⟨S50000, .f32⟩ : BufTy).Contents (Elt F) → (⟨S50000, .f32⟩ : BufTy).Contents (Elt F)),
    unary main_v58 main_v59 (Host.rsqrt : (⟨S50000, .f32⟩ : BufTy).Contents (Elt F) → (⟨S50000, .f32⟩ : BufTy).Contents (Elt F)),
    nullary main_cst_15 (constant S_ .f32 0x00000000#32),
    TRef.unary (.of main_cst_15) main_call2.v0 id,
    TRef.unary main_call2.v0 main_call2.v1 (broadcastInDim S50000 ![] bcast_S_S50000),
    TRef.ternary (.of main_v56) (.of main_v59) main_call2.v1 main_call2.v2 select,
    nullary main_c_16 (constantI S_ 32 0#32),
    unary main_c_16 main_v61 (broadcastInDim S850000 ![] bcast_S_S850000 : (⟨S_, .i32⟩ : BufTy).Contents (Elt F) → (⟨S850000, .i32⟩ : BufTy).Contents (Elt F)),
    binary main_v3 main_v61 main_v62 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v63 (broadcastInDim S850000 ![] bcast_S_S850000 : (⟨S_, .i32⟩ : BufTy).Contents (Elt F) → (⟨S850000, .i32⟩ : BufTy).Contents (Elt F)),
    binary main_v3 main_v63 main_v64 (addi : (⟨S850000, .i32⟩ : BufTy).Contents (Elt F) → (⟨S850000, .i32⟩ : BufTy).Contents (Elt F) → (⟨S850000, .i32⟩ : BufTy).Contents (Elt F)),
    ternary main_v62 main_v64 main_v3 main_v65 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v65 main_v66 (broadcastInDim S850000x1 ![0] bcast_S850000_S850000x1_0 : (⟨S850000, .i32⟩ : BufTy).Contents (Elt F) → (⟨S850000x1, .i32⟩ : BufTy).Contents (Elt F)),
    binary main_v60 main_v66 main_v67 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_18 (constantI S_ 32 0#32),
    unary main_c_18 main_v68 (broadcastInDim S850000 ![] bcast_S_S850000 : (⟨S_, .i32⟩ : BufTy).Contents (Elt F) → (⟨S850000, .i32⟩ : BufTy).Contents (Elt F)),
    binary main_v6 main_v68 main_v69 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v70 (broadcastInDim S850000 ![] bcast_S_S850000 : (⟨S_, .i32⟩ : BufTy).Contents (Elt F) → (⟨S850000, .i32⟩ : BufTy).Contents (Elt F)),
    binary main_v6 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v6 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v60 main_v73 main_v74 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v67 main_v74 main_v75 (mulf : (⟨S850000, .f32⟩ : BufTy).Contents (Elt F) → (⟨S850000, .f32⟩ : BufTy).Contents (Elt F) → (⟨S850000, .f32⟩ : BufTy).Contents (Elt F)) ]

theorem ops2n_sub : (ops2n : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem ops2n_fresh : (ops2n : List (HloOp τ sig (Elt F))).Forall fun op => op.fresh = ∅ := by
  simp only [List.Forall]; repeat' constructor

/-- Layer 2: the messages and their sums (16 operations). -/
abbrev ops2g : List (HloOp τ sig (Elt F)) :=
  [ nullary main_c_20 (constantI S_ 32 0#32),
    unary main_c_20 main_v76 (broadcastInDim S850000 ![] bcast_S_S850000 : (⟨S_, .i32⟩ : BufTy).Contents (Elt F) → (⟨S850000, .i32⟩ : BufTy).Contents (Elt F)),
    binary main_v3 main_v76 main_v77 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v78 (broadcastInDim S850000 ![] bcast_S_S850000 : (⟨S_, .i32⟩ : BufTy).Contents (Elt F) → (⟨S850000, .i32⟩ : BufTy).Contents (Elt F)),
    binary main_v3 main_v78 main_v79 (addi : (⟨S850000, .i32⟩ : BufTy).Contents (Elt F) → (⟨S850000, .i32⟩ : BufTy).Contents (Elt F) → (⟨S850000, .i32⟩ : BufTy).Contents (Elt F)),
    ternary main_v77 main_v79 main_v3 main_v80 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v80 main_v81 (broadcastInDim S850000x1 ![0] bcast_S850000_S850000x1_0 : (⟨S850000, .i32⟩ : BufTy).Contents (Elt F) → (⟨S850000x1, .i32⟩ : BufTy).Contents (Elt F)),
    binary main_v50 main_v81 main_v82 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v75 main_v83 (broadcastInDim S850000x1 ![0] bcast_S850000_S850000x1_0 : (⟨S850000, .f32⟩ : BufTy).Contents (Elt F) → (⟨S850000x1, .f32⟩ : BufTy).Contents (Elt F)),
    unary main_v83 main_v84 (broadcastInDim S850000x128 ![0, 1] bcast_S850000x1_S850000x128_0_1 : (⟨S850000x1, .f32⟩ : BufTy).Contents (Elt F) → (⟨S850000x128, .f32⟩ : BufTy).Contents (Elt F)),
    binary main_v82 main_v84 main_v85 (mulf : (⟨S850000x128, .f32⟩ : BufTy).Contents (Elt F) → (⟨S850000x128, .f32⟩ : BufTy).Contents (Elt F) → (⟨S850000x128, .f32⟩ : BufTy).Contents (Elt F)),
    nullary main_cst_22 (constant S_ .f32 0x00000000#32),
    unary main_cst_22 main_v86 (broadcastInDim S50000x128 ![] bcast_S_S50000x128 : (⟨S_, .f32⟩ : BufTy).Contents (Elt F) → (⟨S50000x128, .f32⟩ : BufTy).Contents (Elt F)),
    unary main_v6 main_v87 (broadcastInDim S850000x1 ![0] bcast_S850000_S850000x1_0 : (⟨S850000, .i32⟩ : BufTy).Contents (Elt F) → (⟨S850000x1, .i32⟩ : BufTy).Contents (Elt F)),
    ternary main_v86 main_v87 main_v85 main_v88 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

theorem ops2g_sub : (ops2g : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem ops2g_fresh : (ops2g : List (HloOp τ sig (Elt F))).Forall fun op => op.fresh = ∅ := by
  simp only [List.Forall]; repeat' constructor

/-- Layer 2: the bias and the leaky rectifier (11 operations). -/
abbrev ops2b : List (HloOp τ sig (Elt F)) :=
  [ unary main_arg4 main_v89 (broadcastInDim S1x128 ![1] bcast_S128_S1x128_1 : (⟨S128, .f32⟩ : BufTy).Contents (Elt F) → (⟨S1x128, .f32⟩ : BufTy).Contents (Elt F)),
    unary main_v89 main_v90 (broadcastInDim S50000x128 ![0, 1] bcast_S1x128_S50000x128_0_1 : (⟨S1x128, .f32⟩ : BufTy).Contents (Elt F) → (⟨S50000x128, .f32⟩ : BufTy).Contents (Elt F)),
    binary main_v88 main_v90 main_v91 (addf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3C23D70A#32),
    TRef.nullary main_call3.cst (constant S_ .f32 0x00000000#32),
    TRef.unary main_call3.cst main_call3.v0 (broadcastInDim S50000x128 ![] bcast_S_S50000x128),
    TRef.binary (.of main_v91) main_call3.v0 main_call3.v1 (cmpf .oge),
    TRef.unary (.of main_cst_23) main_call3.v2 id,
    TRef.unary main_call3.v2 main_call3.v3 (broadcastInDim S50000x128 ![] bcast_S_S50000x128),
    TRef.binary main_call3.v3 (.of main_v91) main_call3.v4 mulf,
    TRef.ternary main_call3.v1 (.of main_v91) main_call3.v4 main_call3.call0.v0 select ]

theorem ops2b_sub : (ops2b : List (HloOp τ sig (Elt F))).Forall fun op => op.bufs ⊆ tcRefs τ sig :=
  ⟨unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem ops2b_fresh : (ops2b : List (HloOp τ sig (Elt F))).Forall fun op => op.fresh = ∅ := by
  simp only [List.Forall]; repeat' constructor

/-- Layer 3: the features times the weights (1 operations). -/
abbrev ops3d : List (HloOp τ sig (Elt F)) :=
  [ binary main_v92 main_arg5 main_v93 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

theorem ops3d_sub : (ops3d : List (HloOp τ sig (Elt F))).Forall fun op => op.bufs ⊆ tcRefs τ sig :=
  binary_bufs_sub ..

theorem ops3d_fresh : (ops3d : List (HloOp τ sig (Elt F))).Forall fun op => op.fresh = ∅ := by
  simp only [List.Forall]; repeat' constructor

/-- Layer 3: the edges' coefficients again (36 operations). -/
abbrev ops3n : List (HloOp τ sig (Elt F)) :=
  [ nullary main_cst_24 (constant S_ .f32 0x3F800000#32),
    unary main_cst_24 main_v94 (broadcastInDim S850000 ![] bcast_S_S850000 : (⟨S_, .f32⟩ : BufTy).Contents (Elt F) → (⟨S850000, .f32⟩ : BufTy).Contents (Elt F)),
    nullary main_cst_25 (constant S_ .f32 0x00000000#32),
    unary main_cst_25 main_v95 (broadcastInDim S50000 ![] bcast_S_S50000 : (⟨S_, .f32⟩ : BufTy).Contents (Elt F) → (⟨S50000, .f32⟩ : BufTy).Contents (Elt F)),
    unary main_v6 main_v96 (broadcastInDim S850000x1 ![0] bcast_S850000_S850000x1_0 : (⟨S850000, .i32⟩ : BufTy).Contents (Elt F) → (⟨S850000x1, .i32⟩ : BufTy).Contents (Elt F)),
    ternary main_v95 main_v96 main_v94 main_v97 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_26 (constant S_ .f32 0x00000000#32),
    unary main_cst_26 main_v98 (broadcastInDim S50000 ![] bcast_S_S50000 : (⟨S_, .f32⟩ : BufTy).Contents (Elt F) → (⟨S50000, .f32⟩ : BufTy).Contents (Elt F)),
    binary main_v97 main_v98 main_v99 (cmpf .ogt : (⟨S50000, .f32⟩ : BufTy).Contents (Elt F) → (⟨S50000, .f32⟩ : BufTy).Contents (Elt F) → (⟨S50000, .i1⟩ : BufTy).Contents (Elt F)),
    nullary main_cst_27 (constant S_ .f32 0x2B8CBCCC#32),
    unary main_cst_27 main_v100 (broadcastInDim S50000 ![] bcast_S_S50000 : (⟨S_, .f32⟩ : BufTy).Contents (Elt F) → (⟨S50000, .f32⟩ : BufTy).Contents (Elt F)),
    binary main_v97 main_v100 main_v101 (maximumf : (⟨S50000, .f32⟩ : BufTy).Contents (Elt F) → (⟨S50000, .f32⟩ : BufTy).Contents (Elt F) → (⟨S50000, .f32⟩ : BufTy).Contents (Elt F)),
    unary main_v101 main_v102 (Host.rsqrt : (⟨S50000, .f32⟩ : BufTy).Contents (Elt F) → (⟨S50000, .f32⟩ : BufTy).Contents (Elt F)),
    nullary main_cst_28 (constant S_ .f32 0x00000000#32),
    TRef.unary (.of main_cst_28) main_call4.v0 id,
    TRef.unary main_call4.v0 main_call4.v1 (broadcastInDim S50000 ![] bcast_S_S50000),
    TRef.ternary (.of main_v99) (.of main_v102) main_call4.v1 main_call4.v2 select,
    nullary main_c_29 (constantI S_ 32 0#32),
    unary main_c_29 main_v104 (broadcastInDim S850000 ![] bcast_S_S850000 : (⟨S_, .i32⟩ : BufTy).Contents (Elt F) → (⟨S850000, .i32⟩ : BufTy).Contents (Elt F)),
    binary main_v3 main_v104 main_v105 (cmpi .slt : (⟨S850000, .i32⟩ : BufTy).Contents (Elt F) → (⟨S850000, .i32⟩ : BufTy).Contents (Elt F) → (⟨S850000, .i1⟩ : BufTy).Contents (Elt F)),
    nullary main_c_30 (constantI S_ 32 50000#32),
    unary main_c_30 main_v106 (broadcastInDim S850000 ![] bcast_S_S850000 : (⟨S_, .i32⟩ : BufTy).Contents (Elt F) → (⟨S850000, .i32⟩ : BufTy).Contents (Elt F)),
    binary main_v3 main_v106 main_v107 (addi : (⟨S850000, .i32⟩ : BufTy).Contents (Elt F) → (⟨S850000, .i32⟩ : BufTy).Contents (Elt F) → (⟨S850000, .i32⟩ : BufTy).Contents (Elt F)),
    ternary main_v105 main_v107 main_v3 main_v108 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v108 main_v109 (broadcastInDim S850000x1 ![0] bcast_S850000_S850000x1_0 : (⟨S850000, .i32⟩ : BufTy).Contents (Elt F) → (⟨S850000x1, .i32⟩ : BufTy).Contents (Elt F)),
    binary main_v103 main_v109 main_v110 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_31 (constantI S_ 32 0#32),
    unary main_c_31 main_v111 (broadcastInDim S850000 ![] bcast_S_S850000 : (⟨S_, .i32⟩ : BufTy).Contents (Elt F) → (⟨S850000, .i32⟩ : BufTy).Contents (Elt F)),
    binary main_v6 main_v111 main_v112 (cmpi .slt : (⟨S850000, .i32⟩ : BufTy).Contents (Elt F) → (⟨S850000, .i32⟩ : BufTy).Contents (Elt F) → (⟨S850000, .i1⟩ : BufTy).Contents (Elt F)),
    nullary main_c_32 (constantI S_ 32 50000#32),
    unary main_c_32 main_v113 (broadcastInDim S850000 ![] bcast_S_S850000 : (⟨S_, .i32⟩ : BufTy).Contents (Elt F) → (⟨S850000, .i32⟩ : BufTy).Contents (Elt F)),
    binary main_v6 main_v113 main_v114 (addi : (⟨S850000, .i32⟩ : BufTy).Contents (Elt F) → (⟨S850000, .i32⟩ : BufTy).Contents (Elt F) → (⟨S850000, .i32⟩ : BufTy).Contents (Elt F)),
    ternary main_v112 main_v114 main_v6 main_v115 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v115 main_v116 (broadcastInDim S850000x1 ![0] bcast_S850000_S850000x1_0 : (⟨S850000, .i32⟩ : BufTy).Contents (Elt F) → (⟨S850000x1, .i32⟩ : BufTy).Contents (Elt F)),
    binary main_v103 main_v116 main_v117 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v110 main_v117 main_v118 (mulf : (⟨S850000, .f32⟩ : BufTy).Contents (Elt F) → (⟨S850000, .f32⟩ : BufTy).Contents (Elt F) → (⟨S850000, .f32⟩ : BufTy).Contents (Elt F)) ]

theorem ops3n_sub : (ops3n : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem ops3n_fresh : (ops3n : List (HloOp τ sig (Elt F))).Forall fun op => op.fresh = ∅ := by
  simp only [List.Forall]; repeat' constructor

/-- Layer 3: the messages and their sums (16 operations). -/
abbrev ops3g : List (HloOp τ sig (Elt F)) :=
  [ nullary main_c_33 (constantI S_ 32 0#32),
    unary main_c_33 main_v119 (broadcastInDim S850000 ![] bcast_S_S850000 : (⟨S_, .i32⟩ : BufTy).Contents (Elt F) → (⟨S850000, .i32⟩ : BufTy).Contents (Elt F)),
    binary main_v3 main_v119 main_v120 (cmpi .slt : (⟨S850000, .i32⟩ : BufTy).Contents (Elt F) → (⟨S850000, .i32⟩ : BufTy).Contents (Elt F) → (⟨S850000, .i1⟩ : BufTy).Contents (Elt F)),
    nullary main_c_34 (constantI S_ 32 50000#32),
    unary main_c_34 main_v121 (broadcastInDim S850000 ![] bcast_S_S850000 : (⟨S_, .i32⟩ : BufTy).Contents (Elt F) → (⟨S850000, .i32⟩ : BufTy).Contents (Elt F)),
    binary main_v3 main_v121 main_v122 (addi : (⟨S850000, .i32⟩ : BufTy).Contents (Elt F) → (⟨S850000, .i32⟩ : BufTy).Contents (Elt F) → (⟨S850000, .i32⟩ : BufTy).Contents (Elt F)),
    ternary main_v120 main_v122 main_v3 main_v123 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v123 main_v124 (broadcastInDim S850000x1 ![0] bcast_S850000_S850000x1_0 : (⟨S850000, .i32⟩ : BufTy).Contents (Elt F) → (⟨S850000x1, .i32⟩ : BufTy).Contents (Elt F)),
    binary main_v93 main_v124 main_v125 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v118 main_v126 (broadcastInDim S850000x1 ![0] bcast_S850000_S850000x1_0 : (⟨S850000, .f32⟩ : BufTy).Contents (Elt F) → (⟨S850000x1, .f32⟩ : BufTy).Contents (Elt F)),
    unary main_v126 main_v127 (broadcastInDim S850000x128 ![0, 1] bcast_S850000x1_S850000x128_0_1 : (⟨S850000x1, .f32⟩ : BufTy).Contents (Elt F) → (⟨S850000x128, .f32⟩ : BufTy).Contents (Elt F)),
    binary main_v125 main_v127 main_v128 (mulf : (⟨S850000x128, .f32⟩ : BufTy).Contents (Elt F) → (⟨S850000x128, .f32⟩ : BufTy).Contents (Elt F) → (⟨S850000x128, .f32⟩ : BufTy).Contents (Elt F)),
    nullary main_cst_35 (constant S_ .f32 0x00000000#32),
    unary main_cst_35 main_v129 (broadcastInDim S50000x128 ![] bcast_S_S50000x128 : (⟨S_, .f32⟩ : BufTy).Contents (Elt F) → (⟨S50000x128, .f32⟩ : BufTy).Contents (Elt F)),
    unary main_v6 main_v130 (broadcastInDim S850000x1 ![0] bcast_S850000_S850000x1_0 : (⟨S850000, .i32⟩ : BufTy).Contents (Elt F) → (⟨S850000x1, .i32⟩ : BufTy).Contents (Elt F)),
    ternary main_v129 main_v130 main_v128 main_v131 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

theorem ops3g_sub : (ops3g : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem ops3g_fresh : (ops3g : List (HloOp τ sig (Elt F))).Forall fun op => op.fresh = ∅ := by
  simp only [List.Forall]; repeat' constructor

/-- Layer 3: the bias (3 operations). -/
abbrev ops3b : List (HloOp τ sig (Elt F)) :=
  [ unary main_arg6 main_v132 (broadcastInDim S1x128 ![1] bcast_S128_S1x128_1 : (⟨S128, .f32⟩ : BufTy).Contents (Elt F) → (⟨S1x128, .f32⟩ : BufTy).Contents (Elt F)),
    unary main_v132 main_v133 (broadcastInDim S50000x128 ![0, 1] bcast_S1x128_S50000x128_0_1 : (⟨S1x128, .f32⟩ : BufTy).Contents (Elt F) → (⟨S50000x128, .f32⟩ : BufTy).Contents (Elt F)),
    binary main_v131 main_v133 main_v134 (addf : (⟨S50000x128, .f32⟩ : BufTy).Contents (Elt F) → (⟨S50000x128, .f32⟩ : BufTy).Contents (Elt F) → (⟨S50000x128, .f32⟩ : BufTy).Contents (Elt F)) ]

theorem ops3b_sub : (ops3b : List (HloOp τ sig (Elt F))).Forall fun op => op.bufs ⊆ tcRefs τ sig :=
  ⟨unary_bufs_sub .., unary_bufs_sub .., binary_bufs_sub ..⟩

theorem ops3b_fresh : (ops3b : List (HloOp τ sig (Elt F))).Forall fun op => op.fresh = ∅ := by
  simp only [List.Forall]; repeat' constructor

/-- The pooling: each graph's first node's embedding and each graph's sum (26 operations). -/
abbrev opsP : List (HloOp τ sig (Elt F)) :=
  [ nullary main_c_36 (constantI S_ 32 1#32),
    unary main_c_36 main_v135 (broadcastInDim S50000 ![] bcast_S_S50000 : (⟨S_, .i32⟩ : BufTy).Contents (Elt F) → (⟨S50000, .i32⟩ : BufTy).Contents (Elt F)),
    nullary main_c_37 (constantI S_ 32 0#32),
    unary main_c_37 main_v136 (broadcastInDim S64 ![] bcast_S_S64 : (⟨S_, .i32⟩ : BufTy).Contents (Elt F) → (⟨S64, .i32⟩ : BufTy).Contents (Elt F)),
    unary main_arg8 main_v137 (broadcastInDim S50000x1 ![0] bcast_S50000_S50000x1_0 : (⟨S50000, .i32⟩ : BufTy).Contents (Elt F) → (⟨S50000x1, .i32⟩ : BufTy).Contents (Elt F)),
    ternary main_v136 main_v137 main_v135 main_v138 ((fun x i u => Host.scatter scatter_S64_S50000x1_S50000_n_0_0_1 IntOp.addi x i u) : (⟨S64, .i32⟩ : BufTy).Contents (Elt F) → (⟨S50000x1, .i32⟩ : BufTy).Contents (Elt F) → (⟨S50000, .i32⟩ : BufTy).Contents (Elt F) → (⟨S64, .i32⟩ : BufTy).Contents (Elt F)),
    nullary main_c_38 (constantI S_ 32 0#32),
    unary main_c_38 main_v139 (broadcastInDim S1 ![] bcast_S_S1 : (⟨S_, .i32⟩ : BufTy).Contents (Elt F) → (⟨S1, .i32⟩ : BufTy).Contents (Elt F)),
    TRef.nullary main_call5.call0.c (constantI S_ 32 0#32),
    TRef.unary main_call5.call0.c main_call5.call0.v0 (broadcastInDim S_ ![] bcast_S_S_),
    TRef.binary (.of main_v138) main_call5.call0.v0 main_call5.call0.v1 (fun x v => Host.reduceWindow IntOp.addi ![64] ![1] ![63] ![0] x v reduceWindows_S64_S64_w64s1p63_0 h_S_),
    unary main_v140 main_v141 ((extractStridedSlice S63 ![0] · slices_S64_S63_0) : (⟨S64, .i32⟩ : BufTy).Contents (Elt F) → (⟨S63, .i32⟩ : BufTy).Contents (Elt F)),
    binary main_v139 main_v141 main_v142 ((fun a b => concatenate S64 0 [⟨S1, a⟩, ⟨S63, b⟩] concatenates_S1_S63_S64_d0) : (⟨S1, .i32⟩ : BufTy).Contents (Elt F) → (⟨S63, .i32⟩ : BufTy).Contents (Elt F) → (⟨S64, .i32⟩ : BufTy).Contents (Elt F)),
    nullary main_cst_39 (constant S_ .f32 0x00000000#32),
    unary main_cst_39 main_v143 (broadcastInDim S64x128 ![] bcast_S_S64x128 : (⟨S_, .f32⟩ : BufTy).Contents (Elt F) → (⟨S64x128, .f32⟩ : BufTy).Contents (Elt F)),
    unary main_arg8 main_v144 (broadcastInDim S50000x1 ![0] bcast_S50000_S50000x1_0 : (⟨S50000, .i32⟩ : BufTy).Contents (Elt F) → (⟨S50000x1, .i32⟩ : BufTy).Contents (Elt F)),
    ternary main_v143 main_v144 main_v134 main_v145 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    nullary main_c_40 (constantI S_ 32 0#32),
    unary main_c_40 main_v146 (broadcastInDim S64 ![] bcast_S_S64 : (⟨S_, .i32⟩ : BufTy).Contents (Elt F) → (⟨S64, .i32⟩ : BufTy).Contents (Elt F)),
    binary main_v142 main_v146 main_v147 (cmpi .slt : (⟨S64, .i32⟩ : BufTy).Contents (Elt F) → (⟨S64, .i32⟩ : BufTy).Contents (Elt F) → (⟨S64, .i1⟩ : BufTy).Contents (Elt F)),
    nullary main_c_41 (constantI S_ 32 50000#32),
    unary main_c_41 main_v148 (broadcastInDim S64 ![] bcast_S_S64 : (⟨S_, .i32⟩ : BufTy).Contents (Elt F) → (⟨S64, .i32⟩ : BufTy).Contents (Elt F)),
    binary main_v142 main_v148 main_v149 (addi : (⟨S64, .i32⟩ : BufTy).Contents (Elt F) → (⟨S64, .i32⟩ : BufTy).Contents (Elt F) → (⟨S64, .i32⟩ : BufTy).Contents (Elt F)),
    ternary main_v147 main_v149 main_v142 main_v150 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v150 main_v151 (broadcastInDim S64x1 ![0] bcast_S64_S64x1_0 : (⟨S64, .i32⟩ : BufTy).Contents (Elt F) → (⟨S64x1, .i32⟩ : BufTy).Contents (Elt F)),
    binary main_v134 main_v151 main_v152 ((fun x i => Host.gather gather_S50000x128_S64x1_S64x128_1_0_n_n_0_1_1128 x i) : (⟨S50000x128, .f32⟩ : BufTy).Contents (Elt F) → (⟨S64x1, .i32⟩ : BufTy).Contents (Elt F) → (⟨S64x128, .f32⟩ : BufTy).Contents (Elt F)) ]

theorem opsP_sub : (opsP : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩

theorem opsP_fresh : (opsP : List (HloOp τ sig (Elt F))).Forall fun op => op.fresh = ∅ := by
  simp only [List.Forall]; repeat' constructor

/-- The whole line. -/
abbrev ops : List (HloOp τ sig (Elt F)) :=
  opsA ++ ops1d ++ ops1n ++ ops1g ++ ops1b ++ ops2d ++ ops2n ++ ops2g ++ ops2b ++ ops3d ++ ops3n ++ ops3g ++ ops3b ++ opsP

end Cert.ReferenceIdeal.RefOps

end
-- ==== Proof.RefRun.lean ====
/-
  The reference program's run.

  The reference is one straight line of host operations: the functions it calls are executed on the operands at the call,
  so with their operations written at the call sites the program IS the line of RefOps. A straight line terminates without
  a fault and leaves every buffer at the fold of the operations' results over the launch contents.
-/
import proofs.«105635_j5566277616603_1_alg».proof.Proof.RefOps

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

set_option maxRecDepth 16384 in
set_option maxHeartbeats 8000000 in
/-- The program is the line: each called function's definition opened at its call, the four windows of the program's text
    joined, and the sequencing reassociated, both sides are one chain of the same steps. -/
theorem main_eq (c : Dev nD) : main (F := F) c = seq ops := by
  simp only [main, main_part0, main_part1, main_part2, main_part3,
    fn_where.body, fn_where_0.body, fn_leaky_relu.body, fn_cumsum_1.body, fn_cumsum.body,
    ops, opsA, ops1d, ops1n, ops1g, ops1b, ops2d, ops2n, ops2g, ops2b, ops3d, ops3n, ops3g, ops3b, opsP, List.cons_append, List.nil_append, seq, bind_assoc, pure_bind]

/-- No buffer and no semaphore of the reference is scoped to a region: it launches no kernel. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig := by
  simp only [ops, List.forall_append]
  exact ⟨⟨⟨⟨⟨⟨⟨⟨⟨⟨⟨⟨⟨opsA_sub, ops1d_sub⟩, ops1n_sub⟩, ops1g_sub⟩, ops1b_sub⟩, ops2d_sub⟩, ops2n_sub⟩, ops2g_sub⟩, ops2b_sub⟩, ops3d_sub⟩, ops3n_sub⟩, ops3g_sub⟩, ops3b_sub⟩, opsP_sub⟩

/-- No operation of the line allocates a buffer: each determines its result. -/
theorem ops_fresh : (ops : List (HloOp τ sig (Elt F))).Forall fun op => op.fresh = ∅ := by
  simp only [ops, List.forall_append]
  exact ⟨⟨⟨⟨⟨⟨⟨⟨⟨⟨⟨⟨⟨opsA_fresh, ops1d_fresh⟩, ops1n_fresh⟩, ops1g_fresh⟩, ops1b_fresh⟩, ops2d_fresh⟩, ops2n_fresh⟩, ops2g_fresh⟩, ops2b_fresh⟩, ops3d_fresh⟩, ops3n_fresh⟩, ops3g_fresh⟩, ops3b_fresh⟩, opsP_fresh⟩

/-- From any memory with zero counters every weakly fair execution of the reference terminates, nothing faulting, and
    every buffer ends at the fold of the line's operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RefRun

end
-- ==== Proof.LibAfterAppend.lean ====
/-
  A straight line of host operations run in two parts.

  The buffer contents after a line of operations are a fold of the operations' results over the starting contents, so
  after a line joined from two parts they are the second part's fold over the first part's: a long line can be read
  stretch by stretch, each stretch from whatever contents the stretches before it left.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines joined are the contents after the second, started from the contents after the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfter

end
-- ==== Proof.RefArgs.lean ====
/-
  The reference writes none of its arguments.

  None of the line's operations has an argument as its result buffer, so after the whole line each argument's buffer
  holds what it held at the launch.
-/
import proofs.«105635_j5566277616603_1_alg».proof.Proof.RefOps
import proofs.«105635_j5566277616603_1_alg».proof.Proof.LibAfterAppend

noncomputable section

namespace Cert.ReferenceIdeal.RefArgs

open Cert.ReferenceIdeal Cert.ReferenceIdeal.RefOps
open Idealize.ShloMosaic Idealize.ShloMosaic.TcCoe Idealize.SL.Sem Idealize.ShloMosaic.StableHlo

variable {F : FTy → Type} [FloatOps F] (V : Valuation τ sig (Elt F))

/-- Argument 0 is as launched after the whole line. -/
theorem arg0_kept : after (ops (F := F)) V (Proc.devRef .tc main_arg0) = V (Proc.devRef .tc main_arg0) := by
  simp only [ops, Cert.LibAfter.after_append]
  after_results_simp

/-- Argument 1 is as launched after the whole line. -/
theorem arg1_kept : after (ops (F := F)) V (Proc.devRef .tc main_arg1) = V (Proc.devRef .tc main_arg1) := by
  simp only [ops, Cert.LibAfter.after_append]
  after_results_simp

/-- Argument 2 is as launched after the whole line. -/
theorem arg2_kept : after (ops (F := F)) V (Proc.devRef .tc main_arg2) = V (Proc.devRef .tc main_arg2) := by
  simp only [ops, Cert.LibAfter.after_append]
  after_results_simp

/-- Argument 3 is as launched after the whole line. -/
theorem arg3_kept : after (ops (F := F)) V (Proc.devRef .tc main_arg3) = V (Proc.devRef .tc main_arg3) := by
  simp only [ops, Cert.LibAfter.after_append]
  after_results_simp

/-- Argument 4 is as launched after the whole line. -/
theorem arg4_kept : after (ops (F := F)) V (Proc.devRef .tc main_arg4) = V (Proc.devRef .tc main_arg4) := by
  simp only [ops, Cert.LibAfter.after_append]
  after_results_simp

/-- Argument 5 is as launched after the whole line. -/
theorem arg5_kept : after (ops (F := F)) V (Proc.devRef .tc main_arg5) = V (Proc.devRef .tc main_arg5) := by
  simp only [ops, Cert.LibAfter.after_append]
  after_results_simp

/-- Argument 6 is as launched after the whole line. -/
theorem arg6_kept : after (ops (F := F)) V (Proc.devRef .tc main_arg6) = V (Proc.devRef .tc main_arg6) := by
  simp only [ops, Cert.LibAfter.after_append]
  after_results_simp

/-- Argument 7 is as launched after the whole line. -/
theorem arg7_kept : after (ops (F := F)) V (Proc.devRef .tc main_arg7) = V (Proc.devRef .tc main_arg7) := by
  simp only [ops, Cert.LibAfter.after_append]
  after_results_simp

/-- Argument 8 is as launched after the whole line. -/
theorem arg8_kept : after (ops (F := F)) V (Proc.devRef .tc main_arg8) = V (Proc.devRef .tc main_arg8) := by
  simp only [ops, Cert.LibAfter.after_append]
  after_results_simp

end Cert.ReferenceIdeal.RefArgs

end
-- ==== Proof.StageSim.lean ====
/-
  The host stages the two programs share, related by congruence.

  Between its grid regions the kernel's program runs the same host operations as the reference, on buffers of its own:
  the edge lists with the self-loops, the in-degrees and each edge's coefficient, per layer the gather of the source
  rows, their scaling and the sum over the edges into the target node, and at the end the pooling. Such a stage's
  result is one composed term of the stage's inputs, the same term in both programs; so if the inputs agree the results
  agree. The gathers, the scatter-sums and the windowed sum are never opened.
-/
import proofs.«105635_j5566277616603_1_alg».proof.Proof.RefOps
import proofs.«105635_j5566277616603_1_alg».proof.Proof.Gen.KernelIdeal.Launch
import Idealize.ShloMosaic.PureOps.Ideal

noncomputable section

namespace Cert.Sim

open Idealize.ShloMosaic Idealize.ShloMosaic.TcCoe Idealize.SL.Sem Idealize.ShloMosaic.StableHlo

/-- The contents of an array of the given shape and element type, on the extended reals. -/
abbrev Arr (s : Shape) (e : EltTy) := (⟨s, e⟩ : BufTy).Contents (Elt Ideal)

variable (VR : Valuation Cert.ReferenceIdeal.τ Cert.ReferenceIdeal.sig (Elt Ideal)) (VK : Valuation Cert.KernelIdeal.τ Cert.KernelIdeal.sig (Elt Ideal))

/-- Reads what is left of a fold inside the operand list of a concatenation, one operation's result at a time. -/
macro "finish_reads" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

variable (VR' : Valuation Cert.ReferenceIdeal.τ Cert.ReferenceIdeal.sig (Elt Ideal))

/-! ## The edge lists and the coefficients -/

/-- The source list with the self-loops: the same operations of the edge index in both programs. -/
theorem edges_row (h7 : (VR (Proc.devRef .tc Cert.ReferenceIdeal.main_arg7) : Arr Cert.KernelIdeal.S2x800000 .i32) = VK (Proc.devRef .tc Cert.KernelIdeal.main_arg7)) :
    (after (Cert.ReferenceIdeal.RefOps.opsA (F := Ideal)) VR (Proc.devRef .tc Cert.ReferenceIdeal.main_v3) : Arr Cert.KernelIdeal.S850000 .i32) = after (Cert.KernelIdeal.Gen.hostOps0_2 (F := Ideal)) (after (Cert.KernelIdeal.Gen.hostOps0_1 (F := Ideal)) (after (Cert.KernelIdeal.Gen.hostOps0 (F := Ideal)) VK)) (Proc.devRef .tc Cert.KernelIdeal.main_v3) := by
  after_results
  rw [h7]
  all_goals rfl

/-- The target list with the self-loops. -/
theorem edges_col (h7 : (VR (Proc.devRef .tc Cert.ReferenceIdeal.main_arg7) : Arr Cert.KernelIdeal.S2x800000 .i32) = VK (Proc.devRef .tc Cert.KernelIdeal.main_arg7)) :
    (after (Cert.ReferenceIdeal.RefOps.opsA (F := Ideal)) VR (Proc.devRef .tc Cert.ReferenceIdeal.main_v6) : Arr Cert.KernelIdeal.S850000 .i32) = after (Cert.KernelIdeal.Gen.hostOps0_2 (F := Ideal)) (after (Cert.KernelIdeal.Gen.hostOps0_1 (F := Ideal)) (after (Cert.KernelIdeal.Gen.hostOps0 (F := Ideal)) VK)) (Proc.devRef .tc Cert.KernelIdeal.main_v6) := by
  after_results
  rw [h7]
  all_goals rfl

set_option maxHeartbeats 2000000 in
/-- Each edge's coefficient — the product of the inverse square roots of its end nodes' in-degrees, zero for a node
    without an incoming edge —, computed from the edge lists. -/
theorem coeff (h7 : (VR (Proc.devRef .tc Cert.ReferenceIdeal.main_arg7) : Arr Cert.KernelIdeal.S2x800000 .i32) = VK (Proc.devRef .tc Cert.KernelIdeal.main_arg7)) :
    (after (Cert.ReferenceIdeal.RefOps.ops1n (F := Ideal)) (after (Cert.ReferenceIdeal.RefOps.opsA (F := Ideal)) VR) (Proc.devRef .tc Cert.ReferenceIdeal.main_v32) : Arr Cert.KernelIdeal.S850000 .f32)
      = after (Cert.KernelIdeal.Gen.hostOps0_2 (F := Ideal)) (after (Cert.KernelIdeal.Gen.hostOps0_1 (F := Ideal)) (after (Cert.KernelIdeal.Gen.hostOps0 (F := Ideal)) VK)) (Proc.devRef .tc Cert.KernelIdeal.main_v31) := by
  after_results_simp
  finish_reads
  rw [h7]
  all_goals rfl

/-- The coefficients depend on the edge lists alone: layer 1's are layer 1's when the lists are the same. -/
theorem coeff_same1 (h3 : VR (Proc.devRef .tc Cert.ReferenceIdeal.main_v3) = VR' (Proc.devRef .tc Cert.ReferenceIdeal.main_v3)) (h6 : VR (Proc.devRef .tc Cert.ReferenceIdeal.main_v6) = VR' (Proc.devRef .tc Cert.ReferenceIdeal.main_v6)) :
    (after (Cert.ReferenceIdeal.RefOps.ops1n (F := Ideal)) VR (Proc.devRef .tc Cert.ReferenceIdeal.main_v32) : Arr Cert.KernelIdeal.S850000 .f32)
      = after (Cert.ReferenceIdeal.RefOps.ops1n (F := Ideal)) VR' (Proc.devRef .tc Cert.ReferenceIdeal.main_v32) := by
  after_results_simp
  rw [h3, h6]
  all_goals rfl

/-- The coefficients depend on the edge lists alone: layer 2's are layer 1's when the lists are the same. -/
theorem coeff_same2 (h3 : VR (Proc.devRef .tc Cert.ReferenceIdeal.main_v3) = VR' (Proc.devRef .tc Cert.ReferenceIdeal.main_v3)) (h6 : VR (Proc.devRef .tc Cert.ReferenceIdeal.main_v6) = VR' (Proc.devRef .tc Cert.ReferenceIdeal.main_v6)) :
    (after (Cert.ReferenceIdeal.RefOps.ops2n (F := Ideal)) VR (Proc.devRef .tc Cert.ReferenceIdeal.main_v75) : Arr Cert.KernelIdeal.S850000 .f32)
      = after (Cert.ReferenceIdeal.RefOps.ops1n (F := Ideal)) VR' (Proc.devRef .tc Cert.ReferenceIdeal.main_v32) := by
  after_results_simp
  rw [h3, h6]
  all_goals rfl

/-- The coefficients depend on the edge lists alone: layer 3's are layer 1's when the lists are the same. -/
theorem coeff_same3 (h3 : VR (Proc.devRef .tc Cert.ReferenceIdeal.main_v3) = VR' (Proc.devRef .tc Cert.ReferenceIdeal.main_v3)) (h6 : VR (Proc.devRef .tc Cert.ReferenceIdeal.main_v6) = VR' (Proc.devRef .tc Cert.ReferenceIdeal.main_v6)) :
    (after (Cert.ReferenceIdeal.RefOps.ops3n (F := Ideal)) VR (Proc.devRef .tc Cert.ReferenceIdeal.main_v118) : Arr Cert.KernelIdeal.S850000 .f32)
      = after (Cert.ReferenceIdeal.RefOps.ops1n (F := Ideal)) VR' (Proc.devRef .tc Cert.ReferenceIdeal.main_v32) := by
  after_results_simp
  rw [h3, h6]
  all_goals rfl

/-! ## The message sums -/

/-- Layer 1's message sums: from equal edge lists, equal coefficients and equal products, equal sums over the edges. -/
theorem sums1 (h3 : (VR (Proc.devRef .tc Cert.ReferenceIdeal.main_v3) : Arr Cert.KernelIdeal.S850000 .i32) = VK (Proc.devRef .tc Cert.KernelIdeal.main_v3))
    (h6 : (VR (Proc.devRef .tc Cert.ReferenceIdeal.main_v6) : Arr Cert.KernelIdeal.S850000 .i32) = VK (Proc.devRef .tc Cert.KernelIdeal.main_v6))
    (hn : (VR (Proc.devRef .tc Cert.ReferenceIdeal.main_v32) : Arr Cert.KernelIdeal.S850000 .f32) = VK (Proc.devRef .tc Cert.KernelIdeal.main_v31))
    (hh : (VR (Proc.devRef .tc Cert.ReferenceIdeal.main_v7) : Arr Cert.KernelIdeal.S50000x128 .f32) = VK (Proc.devRef .tc Cert.KernelIdeal.main_v32)) :
    (after (Cert.ReferenceIdeal.RefOps.ops1g (F := Ideal)) VR (Proc.devRef .tc Cert.ReferenceIdeal.main_v45) : Arr Cert.KernelIdeal.S50000x128 .f32)
      = after (Cert.KernelIdeal.Gen.hostOps1 (F := Ideal)) VK (Proc.devRef .tc Cert.KernelIdeal.main_v45) := by
  after_results_simp
  rw [h3, h6, hn, hh]
  all_goals rfl

/-- Layer 2's message sums: from equal edge lists, equal coefficients and equal products, equal sums over the edges. -/
theorem sums2 (h3 : (VR (Proc.devRef .tc Cert.ReferenceIdeal.main_v3) : Arr Cert.KernelIdeal.S850000 .i32) = VK (Proc.devRef .tc Cert.KernelIdeal.main_v3))
    (h6 : (VR (Proc.devRef .tc Cert.ReferenceIdeal.main_v6) : Arr Cert.KernelIdeal.S850000 .i32) = VK (Proc.devRef .tc Cert.KernelIdeal.main_v6))
    (hn : (VR (Proc.devRef .tc Cert.ReferenceIdeal.main_v75) : Arr Cert.KernelIdeal.S850000 .f32) = VK (Proc.devRef .tc Cert.KernelIdeal.main_v31))
    (hh : (VR (Proc.devRef .tc Cert.ReferenceIdeal.main_v50) : Arr Cert.KernelIdeal.S50000x128 .f32) = VK (Proc.devRef .tc Cert.KernelIdeal.main_v48)) :
    (after (Cert.ReferenceIdeal.RefOps.ops2g (F := Ideal)) VR (Proc.devRef .tc Cert.ReferenceIdeal.main_v88) : Arr Cert.KernelIdeal.S50000x128 .f32)
      = after (Cert.KernelIdeal.Gen.hostOps3 (F := Ideal)) VK (Proc.devRef .tc Cert.KernelIdeal.main_v61) := by
  after_results_simp
  rw [h3, h6, hn, hh]
  all_goals rfl

/-- Layer 3's message sums: from equal edge lists, equal coefficients and equal products, equal sums over the edges. -/
theorem sums3 (h3 : (VR (Proc.devRef .tc Cert.ReferenceIdeal.main_v3) : Arr Cert.KernelIdeal.S850000 .i32) = VK (Proc.devRef .tc Cert.KernelIdeal.main_v3))
    (h6 : (VR (Proc.devRef .tc Cert.ReferenceIdeal.main_v6) : Arr Cert.KernelIdeal.S850000 .i32) = VK (Proc.devRef .tc Cert.KernelIdeal.main_v6))
    (hn : (VR (Proc.devRef .tc Cert.ReferenceIdeal.main_v118) : Arr Cert.KernelIdeal.S850000 .f32) = VK (Proc.devRef .tc Cert.KernelIdeal.main_v31))
    (hh : (VR (Proc.devRef .tc Cert.ReferenceIdeal.main_v93) : Arr Cert.KernelIdeal.S50000x128 .f32) = VK (Proc.devRef .tc Cert.KernelIdeal.main_v64)) :
    (after (Cert.ReferenceIdeal.RefOps.ops3g (F := Ideal)) VR (Proc.devRef .tc Cert.ReferenceIdeal.main_v131) : Arr Cert.KernelIdeal.S50000x128 .f32)
      = after (Cert.KernelIdeal.Gen.hostOps5 (F := Ideal)) VK (Proc.devRef .tc Cert.KernelIdeal.main_v77) := by
  after_results_simp
  rw [h3, h6, hn, hh]
  all_goals rfl

/-! ## The pooling -/

set_option maxHeartbeats 2000000 in
/-- The embedding of each graph's first node: the node counts' running sum shifted by one indexes the rows. -/
theorem pool_first (hx : (VR (Proc.devRef .tc Cert.ReferenceIdeal.main_v134) : Arr Cert.KernelIdeal.S50000x128 .f32) = VK (Proc.devRef .tc Cert.KernelIdeal.main_v79))
    (h8 : (VR (Proc.devRef .tc Cert.ReferenceIdeal.main_arg8) : Arr Cert.KernelIdeal.S50000 .i32) = VK (Proc.devRef .tc Cert.KernelIdeal.main_arg8)) :
    (after (Cert.ReferenceIdeal.RefOps.opsP (F := Ideal)) VR (Proc.devRef .tc Cert.ReferenceIdeal.main_v152) : Arr Cert.KernelIdeal.S64x128 .f32) = after (Cert.KernelIdeal.Gen.hostOps6_2 (F := Ideal)) (after (Cert.KernelIdeal.Gen.hostOps6_1 (F := Ideal)) (after (Cert.KernelIdeal.Gen.hostOps6 (F := Ideal)) VK)) (Proc.devRef .tc Cert.KernelIdeal.main_v97) := by
  after_results_simp
  finish_reads
  rw [hx, h8]
  all_goals rfl

set_option maxHeartbeats 2000000 in
/-- The sum of the embeddings over each graph's nodes. -/
theorem pool_sum (hx : (VR (Proc.devRef .tc Cert.ReferenceIdeal.main_v134) : Arr Cert.KernelIdeal.S50000x128 .f32) = VK (Proc.devRef .tc Cert.KernelIdeal.main_v79))
    (h8 : (VR (Proc.devRef .tc Cert.ReferenceIdeal.main_arg8) : Arr Cert.KernelIdeal.S50000 .i32) = VK (Proc.devRef .tc Cert.KernelIdeal.main_arg8)) :
    (after (Cert.ReferenceIdeal.RefOps.opsP (F := Ideal)) VR (Proc.devRef .tc Cert.ReferenceIdeal.main_v145) : Arr Cert.KernelIdeal.S64x128 .f32) = after (Cert.KernelIdeal.Gen.hostOps6_2 (F := Ideal)) (after (Cert.KernelIdeal.Gen.hostOps6_1 (F := Ideal)) (after (Cert.KernelIdeal.Gen.hostOps6 (F := Ideal)) VK)) (Proc.devRef .tc Cert.KernelIdeal.main_v90) := by
  after_results_simp
  finish_reads
  rw [hx, h8]
  all_goals rfl

/-! ## The reference's products -/

/-- Layer 1's product on the host. -/
theorem dot1 (X : FVec Ideal Cert.ReferenceIdeal.S50000x128 .f32) (W : FVec Ideal Cert.ReferenceIdeal.S128x128 .f32)
    (hX : VR (Proc.devRef .tc Cert.ReferenceIdeal.main_arg0) = X) (hW : VR (Proc.devRef .tc Cert.ReferenceIdeal.main_arg1) = W) :
    Host.dotGeneral (F := Ideal) Cert.ReferenceIdeal.dot_S50000x128_S128x128_S50000x128_1_0_0_1_n_n none X W
      = after (Cert.ReferenceIdeal.RefOps.ops1d (F := Ideal)) VR (Proc.devRef .tc Cert.ReferenceIdeal.main_v7) := by
  subst hX hW
  after_results_simp
  all_goals rfl

/-- Layer 2's product on the host. -/
theorem dot2 (X : FVec Ideal Cert.ReferenceIdeal.S50000x128 .f32) (W : FVec Ideal Cert.ReferenceIdeal.S128x128 .f32)
    (hX : VR (Proc.devRef .tc Cert.ReferenceIdeal.main_v49) = X) (hW : VR (Proc.devRef .tc Cert.ReferenceIdeal.main_arg3) = W) :
    Host.dotGeneral (F := Ideal) Cert.ReferenceIdeal.dot_S50000x128_S128x128_S50000x128_1_0_0_1_n_n none X W
      = after (Cert.ReferenceIdeal.RefOps.ops2d (F := Ideal)) VR (Proc.devRef .tc Cert.ReferenceIdeal.main_v50) := by
  subst hX hW
  after_results_simp
  all_goals rfl

/-- Layer 3's product on the host. -/
theorem dot3 (X : FVec Ideal Cert.ReferenceIdeal.S50000x128 .f32) (W : FVec Ideal Cert.ReferenceIdeal.S128x128 .f32)
    (hX : VR (Proc.devRef .tc Cert.ReferenceIdeal.main_v92) = X) (hW : VR (Proc.devRef .tc Cert.ReferenceIdeal.main_arg5) = W) :
    Host.dotGeneral (F := Ideal) Cert.ReferenceIdeal.dot_S50000x128_S128x128_S50000x128_1_0_0_1_n_n none X W
      = after (Cert.ReferenceIdeal.RefOps.ops3d (F := Ideal)) VR (Proc.devRef .tc Cert.ReferenceIdeal.main_v93) := by
  subst hX hW
  after_results_simp
  all_goals rfl

end Cert.Sim

end
-- ==== Proof.Lrelu.lean ====
/-
  The leaky rectifier of slope 0x3C23D70A (the binary32 word nearest 0.01) on the extended reals, and
  the form in which a comparison-and-select computes it.
-/
import Idealize.ShloMosaic.PureOps.Ideal
import Idealize.ShloMosaic.PureOps.Ideal.Laws
import Idealize.ShloMosaic.Lib.ValueIdx

noncomputable section

namespace Cert.Spec

open Idealize.ShloMosaic

/-- The leaky rectifier: a positive value is kept, any other is multiplied by the slope. The slope is
    the value of the binary32 word `0x3C23D70A`; it multiplies from the left. -/
def lrelu (s : EReal) : EReal := if 0 < s then s else Ideal.ofBits .f32 0x3C23D70A#32 * s

/-- Selecting on "`s` is greater than the zero word's value" between `s` and slope times `s` is the
    leaky rectifier of `s`. -/
theorem select_gt_zero (s : EReal) :
    Scalar.select (Ideal.cmp .ogt s (Ideal.ofBits .f32 0x00000000#32)) s (Ideal.ofBits .f32 0x3C23D70A#32 * s)
      = lrelu s := by
  rw [Ideal.ofBits_zero_f32]
  unfold lrelu Scalar.select Ideal.cmp
  by_cases h : (0 : EReal) < s
  · simp [h]
  · simp [h]

end Cert.Spec

end
-- ==== Proof.LibBiasRow.lean ====
/-
  A bias vector spread over the rows of a matrix, read at an entry.

  A linear layer adds a bias of H entries to every row of an n × H matrix. A kernel body writes this as a cast of the
  [H] vector to the one-row matrix [1, H] followed by a broadcast to [n, H]; the host writes it as two
  broadcasts-in-dimension, [H] → [1, H] along axis 1 and [1, H] → [n, H]. Either way entry (p, q) is the bias at q.
  Also here: the host's all-zero array (a zero constant broadcast from rank 0) reads zero at every index.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibBiasRow

open Idealize.ShloMosaic Idealize.ShloMosaic.ValueIdx

variable {α : Type}

/-- Kernel form: a `[H]` vector cast to the row `[1, H]` and broadcast to `[n, H]` reads, at `(p, q)`, the vector at `q`. -/
theorem cast_broadcast_apply {n H : ℕ} (b : (⟨1, ![H]⟩ : Shape).Idx → α) (h1 : (⟨1, ![H]⟩ : Shape).ShapeCasts ⟨2, ![1, H]⟩)
    (h2 : (⟨2, ![1, H]⟩ : Shape).Broadcasts ⟨2, ![n, H]⟩) (p : Fin n) (q : Fin H) :
    broadcastTo ⟨2, ![n, H]⟩ (shapeCast ⟨2, ![1, H]⟩ b h1) h2 (ix2 p q) = b (ix1 q) := by
  rw [broadcastTo_apply _ h2 (ix2 p q) (ix2 (0 : Fin 1) q) (fun a => by
    match a with
    | ⟨0, _⟩ => rfl
    | ⟨1, _⟩ =>
      show q.val = if H = 1 then 0 else q.val
      split_ifs with hH
      · have := q.isLt; omega
      · rfl)]
  refine shapeCast_apply b h1 _ _ ?_
  rw [Shape.rowMajor_val_two, Shape.rowMajor_val_one]
  show q.val = 0 * H + q.val
  rw [Nat.zero_mul, Nat.zero_add]

/-- Host form: a `[H]` vector broadcast in dimension to `[1, H]` (along axis 1) and then to `[n, H]` reads, at
    `(p, q)`, the vector at `q`. -/
theorem bcast_bcast_apply {n H : ℕ} (b : (⟨1, ![H]⟩ : Shape).Idx → α)
    (h1 : (⟨1, ![H]⟩ : Shape).BroadcastsInDim ⟨2, ![1, H]⟩ ![1])
    (h2 : (⟨2, ![1, H]⟩ : Shape).BroadcastsInDim ⟨2, ![n, H]⟩ ![0, 1]) (p : Fin n) (q : Fin H) :
    broadcastInDim ⟨2, ![n, H]⟩ ![0, 1] h2 (broadcastInDim ⟨2, ![1, H]⟩ ![1] h1 b) (ix2 p q) = b (ix1 q) := by
  have hq : q.val = if H = 1 then 0 else q.val := by
    split_ifs with hH
    · have := q.isLt; omega
    · rfl
  rw [broadcastInDim_apply _ h2 _ (ix2 p q) (ix2 (0 : Fin 1) q) (fun a => by
    match a with
    | ⟨0, _⟩ => rfl
    | ⟨1, _⟩ => exact hq)]
  exact broadcastInDim_apply _ h1 b _ (ix1 q) (fun a => by
    match a with
    | ⟨0, _⟩ => exact hq)

/-- The zero constant of rank 0 broadcast to any shape reads zero at every index, on the extended reals. -/
theorem zeros_apply {s : Shape} (h : (⟨0, ![]⟩ : Shape).BroadcastsInDim s ![]) (j : s.Idx) :
    broadcastInDim s ![] h (constant (F := Ideal) ⟨0, ![]⟩ .f32 0x00000000#32) j = 0 := by
  rw [broadcastInDim_apply _ h _ j ix0 (fun a => a.elim0)]
  exact Ideal.ofBits_zero_f32

end Cert.LibBiasRow

end
-- ==== Proof.HostAct.lean ====
/-
  The host's way of adding a bias and applying the leaky rectifier, read at an entry.

  The reference adds a bias of 128 entries to every row of a 50000 × 128 matrix by two broadcasts-in-dimension and an
  addition, and applies the leaky rectifier as a comparison "greater than OR EQUAL to zero" followed by a select between
  the value and the slope times the value. At entry (p, q) the sum is A[p, q] + b[q]. The select on "≥ 0" and the
  rectifier defined on "> 0" differ only at zero, where both branches are zero: the slope times zero is zero.
-/
import Idealize.ShloMosaic.PureOps.Ideal
import Idealize.ShloMosaic.Lib.ValueIdx
import Idealize.ShloMosaic.Lib.Pipeline.Value
import proofs.«105635_j5566277616603_1_alg».proof.Proof.Lrelu
import proofs.«105635_j5566277616603_1_alg».proof.Proof.LibBiasRow

noncomputable section

namespace Cert.HostSpec

open Idealize.ShloMosaic Idealize.ShloMosaic.ValueIdx Cert.Spec

/-- The matrix of node features, a row of 128, the vector of 128, and the rank-0 shape. -/
abbrev SN : Shape := ⟨2, ![50000, 128]⟩
abbrev SR : Shape := ⟨2, ![1, 128]⟩
abbrev SB : Shape := ⟨1, ![128]⟩
abbrev S0 : Shape := ⟨0, ![]⟩

/-- Selecting on "`s` is at least the zero word's value" between `s` and slope times `s` is the leaky rectifier of
    `s`: at `s = 0` the kept value and the scaled one are both zero. -/
theorem select_ge_zero (s : EReal) :
    Scalar.select (Ideal.cmp .oge s (Ideal.ofBits .f32 0x00000000#32)) s (Ideal.ofBits .f32 0x3C23D70A#32 * s)
      = lrelu s := by
  rw [Ideal.ofBits_zero_f32]
  unfold lrelu Scalar.select Ideal.cmp
  by_cases h : (0 : EReal) ≤ s
  · by_cases h' : (0 : EReal) < s
    · simp [h, h']
    · have hs : s = 0 := le_antisymm (not_lt.mp h') h
      subst hs
      simp
  · have h' : ¬ (0 : EReal) < s := fun h' => h h'.le
    simp [h, h']

/-- The bias spread over the rows and added: two broadcasts-in-dimension and a sum. -/
def hostBias (h1 : SB.BroadcastsInDim SR ![1]) (h2 : SR.BroadcastsInDim SN ![0, 1])
    (A : FVec Ideal SN .f32) (b : FVec Ideal SB .f32) : FVec Ideal SN .f32 :=
  addf A (broadcastInDim SN ![0, 1] h2 (broadcastInDim SR ![1] h1 b))

/-- Entry `(p, q)` of the biased matrix is `A[p, q] + b[q]`. -/
theorem hostBias_ix2 (h1 : SB.BroadcastsInDim SR ![1]) (h2 : SR.BroadcastsInDim SN ![0, 1])
    (A : FVec Ideal SN .f32) (b : FVec Ideal SB .f32) (p : Fin 50000) (q : Fin 128) :
    hostBias h1 h2 A b (ix2 p q) = A (ix2 p q) + b (ix1 q) := by
  unfold hostBias
  rw [addf_apply, Cert.LibBiasRow.bcast_bcast_apply]

/-- A constant of rank 0 broadcast over the matrix reads the constant's value everywhere. -/
theorem scalar_apply (h0 : S0.BroadcastsInDim SN ![]) (w : BitVec 32) (j : SN.Idx) :
    broadcastInDim SN ![] h0 (constant (F := Ideal) S0 .f32 w) j = Ideal.ofBits .f32 w := by
  rw [broadcastInDim_apply _ h0 _ j ix0 (fun a => a.elim0)]
  rfl

/-- The host's leaky rectifier: compare with zero, scale by the slope, select. -/
def hostLeaky (h0 : S0.BroadcastsInDim SN ![]) (X : FVec Ideal SN .f32) : FVec Ideal SN .f32 :=
  select (cmpf .oge X (broadcastInDim SN ![] h0 (constant S0 .f32 0x00000000#32)))
    X (mulf (broadcastInDim SN ![] h0 (constant S0 .f32 0x3C23D70A#32)) X)

/-- At every entry it is the leaky rectifier of the entry. -/
theorem hostLeaky_apply (h0 : S0.BroadcastsInDim SN ![]) (X : FVec Ideal SN .f32) (j : SN.Idx) :
    hostLeaky h0 X j = lrelu (X j) := by
  unfold hostLeaky
  rw [select_apply, cmpf_apply, mulf_apply, scalar_apply, scalar_apply]
  exact select_ge_zero (X j)

end Cert.HostSpec

end
-- ==== Proof.StageAct.lean ====
/-
  The bias and activation stages.

  The reference adds a layer's bias and applies the leaky rectifier on the host; the kernel program does both inside a
  grid region, after reshaping the bias vector into a one-row matrix on the host. Here: the reference's stage as one
  term of its two inputs, and the kernel program's reshaped row read at an entry.
-/
import proofs.«105635_j5566277616603_1_alg».proof.Proof.RefOps
import proofs.«105635_j5566277616603_1_alg».proof.Proof.Gen.KernelIdeal.Launch
import proofs.«105635_j5566277616603_1_alg».proof.Proof.HostAct
import Idealize.ShloMosaic.Lib.Pipeline.Value
import Idealize.ShloMosaic.Lib.ValueIdx

noncomputable section

namespace Cert.Sim

open Idealize.ShloMosaic Idealize.ShloMosaic.TcCoe Idealize.SL.Sem Idealize.ShloMosaic.StableHlo Idealize.ShloMosaic.ValueIdx

variable (VR : Valuation Cert.ReferenceIdeal.τ Cert.ReferenceIdeal.sig (Elt Ideal)) (VK : Valuation Cert.KernelIdeal.τ Cert.KernelIdeal.sig (Elt Ideal))

/-- Layer 1's bias and leaky rectifier on the host, as one term of the message sums and the bias vector. -/
theorem act1 (A : FVec Ideal Cert.ReferenceIdeal.S50000x128 .f32) (b : FVec Ideal Cert.ReferenceIdeal.S128 .f32)
    (hA : VR (Proc.devRef .tc Cert.ReferenceIdeal.main_v45) = A) (hb : VR (Proc.devRef .tc Cert.ReferenceIdeal.main_arg2) = b) :
    Cert.HostSpec.hostLeaky Cert.ReferenceIdeal.Facts₀.bcast_S_S50000x128 (Cert.HostSpec.hostBias Cert.ReferenceIdeal.Facts₀.bcast_S128_S1x128_1 Cert.ReferenceIdeal.Facts₀.bcast_S1x128_S50000x128_0_1 A b)
      = after (Cert.ReferenceIdeal.RefOps.ops1b (F := Ideal)) VR (Proc.devRef .tc Cert.ReferenceIdeal.main_v49) := by
  subst hA hb
  after_results_simp
  all_goals rfl

/-- Layer 2's bias and leaky rectifier on the host, as one term of the message sums and the bias vector. -/
theorem act2 (A : FVec Ideal Cert.ReferenceIdeal.S50000x128 .f32) (b : FVec Ideal Cert.ReferenceIdeal.S128 .f32)
    (hA : VR (Proc.devRef .tc Cert.ReferenceIdeal.main_v88) = A) (hb : VR (Proc.devRef .tc Cert.ReferenceIdeal.main_arg4) = b) :
    Cert.HostSpec.hostLeaky Cert.ReferenceIdeal.Facts₀.bcast_S_S50000x128 (Cert.HostSpec.hostBias Cert.ReferenceIdeal.Facts₀.bcast_S128_S1x128_1 Cert.ReferenceIdeal.Facts₀.bcast_S1x128_S50000x128_0_1 A b)
      = after (Cert.ReferenceIdeal.RefOps.ops2b (F := Ideal)) VR (Proc.devRef .tc Cert.ReferenceIdeal.main_v92) := by
  subst hA hb
  after_results_simp
  all_goals rfl

/-- Layer 3's bias on the host, as one term of the message sums and the bias vector. -/
theorem act3 (A : FVec Ideal Cert.ReferenceIdeal.S50000x128 .f32) (b : FVec Ideal Cert.ReferenceIdeal.S128 .f32)
    (hA : VR (Proc.devRef .tc Cert.ReferenceIdeal.main_v131) = A) (hb : VR (Proc.devRef .tc Cert.ReferenceIdeal.main_arg6) = b) :
    Cert.HostSpec.hostBias Cert.ReferenceIdeal.Facts₀.bcast_S128_S1x128_1 Cert.ReferenceIdeal.Facts₀.bcast_S1x128_S50000x128_0_1 A b
      = after (Cert.ReferenceIdeal.RefOps.ops3b (F := Ideal)) VR (Proc.devRef .tc Cert.ReferenceIdeal.main_v134) := by
  subst hA hb
  after_results_simp
  all_goals rfl

/-- The kernel program reshapes layer 1's bias vector into a row of 128 before its region: entry (0, q) of the row is
    entry q of the vector. -/
theorem row1 (b : FVec Ideal Cert.KernelIdeal.S128 .f32) (hb : VK (Proc.devRef .tc Cert.KernelIdeal.main_arg2) = b) (Rw : FVec Ideal Cert.KernelIdeal.S1x128 .f32)
    (hR : after (Cert.KernelIdeal.Gen.hostOps1 (F := Ideal)) VK (Proc.devRef .tc Cert.KernelIdeal.main_v46) = Rw) (q : Fin 128) :
    Rw (ix2 (0 : Fin 1) q) = b (ix1 q) := by
  subst hb hR
  after_results_simp
  refine shapeCast_apply _ _ _ _ ?_
  show ((⟨1, ![128]⟩ : Shape).rowMajor (ix1 q)).val = ((⟨2, ![1, 128]⟩ : Shape).rowMajor (ix2 (0 : Fin 1) q)).val
  rw [Shape.rowMajor_val_two, Shape.rowMajor_val_one]
  show q.val = 0 * 128 + q.val
  rw [Nat.zero_mul, Nat.zero_add]

/-- The kernel program reshapes layer 2's bias vector into a row of 128 before its region: entry (0, q) of the row is
    entry q of the vector. -/
theorem row2 (b : FVec Ideal Cert.KernelIdeal.S128 .f32) (hb : VK (Proc.devRef .tc Cert.KernelIdeal.main_arg4) = b) (Rw : FVec Ideal Cert.KernelIdeal.S1x128 .f32)
    (hR : after (Cert.KernelIdeal.Gen.hostOps3 (F := Ideal)) VK (Proc.devRef .tc Cert.KernelIdeal.main_v62) = Rw) (q : Fin 128) :
    Rw (ix2 (0 : Fin 1) q) = b (ix1 q) := by
  subst hb hR
  after_results_simp
  refine shapeCast_apply _ _ _ _ ?_
  show ((⟨1, ![128]⟩ : Shape).rowMajor (ix1 q)).val = ((⟨2, ![1, 128]⟩ : Shape).rowMajor (ix2 (0 : Fin 1) q)).val
  rw [Shape.rowMajor_val_two, Shape.rowMajor_val_one]
  show q.val = 0 * 128 + q.val
  rw [Nat.zero_mul, Nat.zero_add]

/-- The kernel program reshapes layer 3's bias vector into a row of 128 before its region: entry (0, q) of the row is
    entry q of the vector. -/
theorem row3 (b : FVec Ideal Cert.KernelIdeal.S128 .f32) (hb : VK (Proc.devRef .tc Cert.KernelIdeal.main_arg6) = b) (Rw : FVec Ideal Cert.KernelIdeal.S1x128 .f32)
    (hR : after (Cert.KernelIdeal.Gen.hostOps5 (F := Ideal)) VK (Proc.devRef .tc Cert.KernelIdeal.main_v78) = Rw) (q : Fin 128) :
    Rw (ix2 (0 : Fin 1) q) = b (ix1 q) := by
  subst hb hR
  after_results_simp
  refine shapeCast_apply _ _ _ _ ?_
  show ((⟨1, ![128]⟩ : Shape).rowMajor (ix1 q)).val = ((⟨2, ![1, 128]⟩ : Shape).rowMajor (ix2 (0 : Fin 1) q)).val
  rw [Shape.rowMajor_val_two, Shape.rowMajor_val_one]
  show q.val = 0 * 128 + q.val
  rw [Nat.zero_mul, Nat.zero_add]

end Cert.Sim

end
-- ==== Proof.ChainRef.lean ====
/-
  What the reference's stages leave alone.

  A buffer that no operation of a stretch writes holds after the stretch what it held before. The arguments are written
  by nothing; the two edge lists are written once, at the start; a layer's product is not touched while the layer's
  coefficients are recomputed. Each fact below is that remark for one buffer and the stretch between its last write and
  its next reading.
-/
import proofs.«105635_j5566277616603_1_alg».proof.Proof.RefOps
import Idealize.ShloMosaic.PureOps.Ideal

noncomputable section

namespace Cert.ReferenceIdeal.Keep

open Idealize.ShloMosaic Idealize.ShloMosaic.TcCoe Idealize.SL.Sem Idealize.ShloMosaic.StableHlo

variable (V : Valuation Cert.ReferenceIdeal.τ Cert.ReferenceIdeal.sig (Elt Ideal))

/-- No stage up to opsA writes the argument 0. -/
theorem arg0_thru_A : after (Cert.ReferenceIdeal.RefOps.opsA (F := Ideal)) (V) (Proc.devRef .tc Cert.ReferenceIdeal.main_arg0) = V (Proc.devRef .tc Cert.ReferenceIdeal.main_arg0) := by
  after_results_simp

/-- No stage up to opsA writes the argument 1. -/
theorem arg1_thru_A : after (Cert.ReferenceIdeal.RefOps.opsA (F := Ideal)) (V) (Proc.devRef .tc Cert.ReferenceIdeal.main_arg1) = V (Proc.devRef .tc Cert.ReferenceIdeal.main_arg1) := by
  after_results_simp

/-- No stage up to ops1g writes the argument 2. -/
theorem arg2_thru_1g : after (Cert.ReferenceIdeal.RefOps.ops1g (F := Ideal)) (after (Cert.ReferenceIdeal.RefOps.ops1n (F := Ideal)) (after (Cert.ReferenceIdeal.RefOps.ops1d (F := Ideal)) (after (Cert.ReferenceIdeal.RefOps.opsA (F := Ideal)) (V)))) (Proc.devRef .tc Cert.ReferenceIdeal.main_arg2) = V (Proc.devRef .tc Cert.ReferenceIdeal.main_arg2) := by
  after_results_simp

/-- No stage up to ops1b writes the argument 3. -/
theorem arg3_thru_1b : after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (after (Cert.ReferenceIdeal.RefOps.opsA (F := Ideal)) (V))))) (Proc.devRef .tc Cert.ReferenceIdeal.main_arg3) = V (Proc.devRef .tc Cert.ReferenceIdeal.main_arg3) := by
  after_results_simp

/-- No stage up to ops2g writes the argument 4. -/
theorem arg4_thru_2g : after (Cert.ReferenceIdeal.RefOps.ops2g (F := Ideal)) (after (Cert.ReferenceIdeal.RefOps.ops2n (F := Ideal)) (after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (after (Cert.ReferenceIdeal.RefOps.opsA (F := Ideal)) (V)))))))) (Proc.devRef .tc Cert.ReferenceIdeal.main_arg4) = V (Proc.devRef .tc Cert.ReferenceIdeal.main_arg4) := by
  after_results_simp

/-- No stage up to ops2b writes the argument 5. -/
theorem arg5_thru_2b : after (Cert.ReferenceIdeal.RefOps.ops2b (F := Ideal)) (after (Cert.ReferenceIdeal.RefOps.ops2g (F := Ideal)) (after (Cert.ReferenceIdeal.RefOps.ops2n (F := Ideal)) (after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (after (Cert.ReferenceIdeal.RefOps.opsA (F := Ideal)) (V))))))))) (Proc.devRef .tc Cert.ReferenceIdeal.main_arg5) = V (Proc.devRef .tc Cert.ReferenceIdeal.main_arg5) := by
  after_results_simp

/-- No stage up to ops3g writes the argument 6. -/
theorem arg6_thru_3g : after (Cert.ReferenceIdeal.RefOps.ops3g (F := Ideal)) (after (Cert.ReferenceIdeal.RefOps.ops3n (F := Ideal)) (after (Cert.ReferenceIdeal.RefOps.ops3d (F := Ideal)) (after (Cert.ReferenceIdeal.RefOps.ops2b (F := Ideal)) (after (Cert.ReferenceIdeal.RefOps.ops2g (F := Ideal)) (after (Cert.ReferenceIdeal.RefOps.ops2n (F := Ideal)) (after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (after (Cert.ReferenceIdeal.RefOps.opsA (F := Ideal)) (V)))))))))))) (Proc.devRef .tc Cert.ReferenceIdeal.main_arg6) = V (Proc.devRef .tc Cert.ReferenceIdeal.main_arg6) := by
  after_results_simp

/-- No stage up to ops3b writes the argument 8. -/
theorem arg8_thru_3b : after (Cert.ReferenceIdeal.RefOps.ops3b (F := Ideal)) (after (Cert.ReferenceIdeal.RefOps.ops3g (F := Ideal)) (after (Cert.ReferenceIdeal.RefOps.ops3n (F := Ideal)) (after (Cert.ReferenceIdeal.RefOps.ops3d (F := Ideal)) (after (Cert.ReferenceIdeal.RefOps.ops2b (F := Ideal)) (after (Cert.ReferenceIdeal.RefOps.ops2g (F := Ideal)) (after (Cert.ReferenceIdeal.RefOps.ops2n (F := Ideal)) (after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (after (Cert.ReferenceIdeal.RefOps.opsA (F := Ideal)) (V))))))))))))) (Proc.devRef .tc Cert.ReferenceIdeal.main_arg8) = V (Proc.devRef .tc Cert.ReferenceIdeal.main_arg8) := by
  after_results_simp

/-- The edge list main_v3 is written once, before ops1d; the stages up to ops1d leave it. -/
theorem v3_thru_1d : after (Cert.ReferenceIdeal.RefOps.ops1d (F := Ideal)) (V) (Proc.devRef .tc Cert.ReferenceIdeal.main_v3) = V (Proc.devRef .tc Cert.ReferenceIdeal.main_v3) := by
  after_results_simp

/-- The edge list main_v6 is written once, before ops1d; the stages up to ops1d leave it. -/
theorem v6_thru_1d : after (Cert.ReferenceIdeal.RefOps.ops1d (F := Ideal)) (V) (Proc.devRef .tc Cert.ReferenceIdeal.main_v6) = V (Proc.devRef .tc Cert.ReferenceIdeal.main_v6) := by
  after_results_simp

/-- The edge list main_v3 is written once, before ops1d; the stages up to ops1n leave it. -/
theorem v3_thru_1n : after (Cert.ReferenceIdeal.RefOps.ops1n (F := Ideal)) (after (Cert.ReferenceIdeal.RefOps.ops1d (F := Ideal)) (V)) (Proc.devRef .tc Cert.ReferenceIdeal.main_v3) = V (Proc.devRef .tc Cert.ReferenceIdeal.main_v3) := by
  after_results_simp

/-- The edge list main_v6 is written once, before ops1d; the stages up to ops1n leave it. -/
theorem v6_thru_1n : after (Cert.ReferenceIdeal.RefOps.ops1n (F := Ideal)) (after (Cert.ReferenceIdeal.RefOps.ops1d (F := Ideal)) (V)) (Proc.devRef .tc Cert.ReferenceIdeal.main_v6) = V (Proc.devRef .tc Cert.ReferenceIdeal.main_v6) := by
  after_results_simp

/-- The edge list main_v3 is written once, before ops1d; the stages up to ops2d leave it. -/
theorem v3_thru_2d : after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (V))))) (Proc.devRef .tc Cert.ReferenceIdeal.main_v3) = V (Proc.devRef .tc Cert.ReferenceIdeal.main_v3) := by
  after_results_simp

/-- The edge list main_v6 is written once, before ops1d; the stages up to ops2d leave it. -/
theorem v6_thru_2d : after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (V))))) (Proc.devRef .tc Cert.ReferenceIdeal.main_v6) = V (Proc.devRef .tc Cert.ReferenceIdeal.main_v6) := by
  after_results_simp

/-- The edge list main_v3 is written once, before ops1d; the stages up to ops2n leave it. -/
theorem v3_thru_2n : after (Cert.ReferenceIdeal.RefOps.ops2n (F := Ideal)) (after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (V)))))) (Proc.devRef .tc Cert.ReferenceIdeal.main_v3) = V (Proc.devRef .tc Cert.ReferenceIdeal.main_v3) := by
  after_results_simp

/-- The edge list main_v6 is written once, before ops1d; the stages up to ops2n leave it. -/
theorem v6_thru_2n : after (Cert.ReferenceIdeal.RefOps.ops2n (F := Ideal)) (after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (V)))))) (Proc.devRef .tc Cert.ReferenceIdeal.main_v6) = V (Proc.devRef .tc Cert.ReferenceIdeal.main_v6) := by
  after_results_simp

/-- The edge list main_v3 is written once, before ops1d; the stages up to ops3d leave it. -/
theorem v3_thru_3d : after (Cert.ReferenceIdeal.RefOps.ops3d (F := Ideal)) (after (Cert.ReferenceIdeal.RefOps.ops2b (F := Ideal)) (after (Cert.ReferenceIdeal.RefOps.ops2g (F := Ideal)) (after (Cert.ReferenceIdeal.RefOps.ops2n (F := Ideal)) (after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (V))))))))) (Proc.devRef .tc Cert.ReferenceIdeal.main_v3) = V (Proc.devRef .tc Cert.ReferenceIdeal.main_v3) := by
  after_results_simp

/-- The edge list main_v6 is written once, before ops1d; the stages up to ops3d leave it. -/
theorem v6_thru_3d : after (Cert.ReferenceIdeal.RefOps.ops3d (F := Ideal)) (after (Cert.ReferenceIdeal.RefOps.ops2b (F := Ideal)) (after (Cert.ReferenceIdeal.RefOps.ops2g (F := Ideal)) (after (Cert.ReferenceIdeal.RefOps.ops2n (F := Ideal)) (after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (V))))))))) (Proc.devRef .tc Cert.ReferenceIdeal.main_v6) = V (Proc.devRef .tc Cert.ReferenceIdeal.main_v6) := by
  after_results_simp

/-- The edge list main_v3 is written once, before ops1d; the stages up to ops3n leave it. -/
theorem v3_thru_3n : after (Cert.ReferenceIdeal.RefOps.ops3n (F := Ideal)) (after (Cert.ReferenceIdeal.RefOps.ops3d (F := Ideal)) (after (Cert.ReferenceIdeal.RefOps.ops2b (F := Ideal)) (after (Cert.ReferenceIdeal.RefOps.ops2g (F := Ideal)) (after (Cert.ReferenceIdeal.RefOps.ops2n (F := Ideal)) (after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (V)))))))))) (Proc.devRef .tc Cert.ReferenceIdeal.main_v3) = V (Proc.devRef .tc Cert.ReferenceIdeal.main_v3) := by
  after_results_simp

/-- The edge list main_v6 is written once, before ops1d; the stages up to ops3n leave it. -/
theorem v6_thru_3n : after (Cert.ReferenceIdeal.RefOps.ops3n (F := Ideal)) (after (Cert.ReferenceIdeal.RefOps.ops3d (F := Ideal)) (after (Cert.ReferenceIdeal.RefOps.ops2b (F := Ideal)) (after (Cert.ReferenceIdeal.RefOps.ops2g (F := Ideal)) (after (Cert.ReferenceIdeal.RefOps.ops2n (F := Ideal)) (after (Cert.ReferenceIdeal.RefOps.ops2d (F := Ideal)) (after (Cert.ReferenceIdeal.RefOps.ops1b (F := Ideal)) (after (Cert.ReferenceIdeal.RefOps.ops1g (F := Ideal)) (after (Cert.ReferenceIdeal.RefOps.ops1n (F := Ideal)) (after (Cert.ReferenceIdeal.RefOps.ops1d (F := Ideal)) (V)))))))))) (Proc.devRef .tc Cert.ReferenceIdeal.main_v6) = V (Proc.devRef .tc Cert.ReferenceIdeal.main_v6) := by
  after_results_simp

/-- The coefficient stage ops1n does not write the layer's product main_v7. -/
theorem v7_thru_1n : after (Cert.ReferenceIdeal.RefOps.ops1n (F := Ideal)) (V) (Proc.devRef .tc Cert.ReferenceIdeal.main_v7) = V (Proc.devRef .tc Cert.ReferenceIdeal.main_v7) := by
  after_results_simp

/-- The coefficient stage ops2n does not write the layer's product main_v50. -/
theorem v50_thru_2n : after (Cert.ReferenceIdeal.RefOps.ops2n (F := Ideal)) (V) (Proc.devRef .tc Cert.ReferenceIdeal.main_v50) = V (Proc.devRef .tc Cert.ReferenceIdeal.main_v50) := by
  after_results_simp

/-- The coefficient stage ops3n does not write the layer's product main_v93. -/
theorem v93_thru_3n : after (Cert.ReferenceIdeal.RefOps.ops3n (F := Ideal)) (V) (Proc.devRef .tc Cert.ReferenceIdeal.main_v93) = V (Proc.devRef .tc Cert.ReferenceIdeal.main_v93) := by
  after_results_simp

end Cert.ReferenceIdeal.Keep

end
-- ==== Proof.ChainK.lean ====
/-
  What the kernel program's segments leave alone.

  A host stretch leaves every buffer it does not write; a grid region writes only its own output array and leaves every
  buffer that is not one of its arrays. So the edge lists and the edges' coefficients, computed before the first region,
  are still in place when each later layer reads them, and an argument is as launched at whichever boundary it is read.
-/
import proofs.«105635_j5566277616603_1_alg».proof.Proof.Gen.KernelIdeal.Frame

noncomputable section

namespace Cert.KernelIdeal.KKeep

open Cert.KernelIdeal Cert.KernelIdeal.Gen
open Idealize.ShloMosaic Idealize.ShloMosaic.TcCoe Idealize.SL.Sem Idealize.ShloMosaic.StableHlo

variable {F : FTy → Type} [FloatOps F]

/-! ## Host stretches -/

/-- The three stretches before the first region (the edge lists, the in-degrees, the coefficients) write no argument. -/
theorem hA_keep (V : Valuation τ sig (Elt F)) : ∀ r ∈ ([main_arg0, main_arg1, main_arg2, main_arg3, main_arg4, main_arg5, main_arg6, main_arg8] : List (Ref sig .tc)),
    after (hostOps0_2 (F := F)) (after (hostOps0_1 (F := F)) (after (hostOps0 (F := F)) V)) (Proc.devRef .tc r) = V (Proc.devRef .tc r) := by
  intro r hr
  simp only [List.mem_cons, List.mem_nil_iff, or_false] at hr
  rcases hr with rfl | rfl | rfl | rfl | rfl | rfl | rfl | rfl <;> after_results_simp

/-- Layer 1's message-sum stretch leaves the edge lists, the coefficients and the later arguments. -/
theorem h1_keep (V : Valuation τ sig (Elt F)) : ∀ r ∈ ([main_v3, main_v6, main_v31, main_arg2, main_arg3, main_arg4, main_arg5, main_arg6, main_arg8] : List (Ref sig .tc)),
    after (hostOps1 (F := F)) V (Proc.devRef .tc r) = V (Proc.devRef .tc r) := by
  intro r hr
  simp only [List.mem_cons, List.mem_nil_iff, or_false] at hr
  rcases hr with rfl | rfl | rfl | rfl | rfl | rfl | rfl | rfl | rfl <;> after_results_simp

/-- Layer 2's message-sum stretch likewise. -/
theorem h3_keep (V : Valuation τ sig (Elt F)) : ∀ r ∈ ([main_v3, main_v6, main_v31, main_arg2, main_arg3, main_arg4, main_arg5, main_arg6, main_arg8] : List (Ref sig .tc)),
    after (hostOps3 (F := F)) V (Proc.devRef .tc r) = V (Proc.devRef .tc r) := by
  intro r hr
  simp only [List.mem_cons, List.mem_nil_iff, or_false] at hr
  rcases hr with rfl | rfl | rfl | rfl | rfl | rfl | rfl | rfl | rfl <;> after_results_simp

/-- Layer 3's message-sum stretch likewise. -/
theorem h5_keep (V : Valuation τ sig (Elt F)) : ∀ r ∈ ([main_v3, main_v6, main_v31, main_arg2, main_arg3, main_arg4, main_arg5, main_arg6, main_arg8] : List (Ref sig .tc)),
    after (hostOps5 (F := F)) V (Proc.devRef .tc r) = V (Proc.devRef .tc r) := by
  intro r hr
  simp only [List.mem_cons, List.mem_nil_iff, or_false] at hr
  rcases hr with rfl | rfl | rfl | rfl | rfl | rfl | rfl | rfl | rfl <;> after_results_simp

/-! ## From a boundary back to where a value was produced -/

variable (m : (ℓ : Loc nD τ sig) → Buf (Elt F) ℓ) (ρ : Dev nD → PrngReg) (c : Dev nD)

/-- At the first region's entry the arguments are as launched: the first three stretches write none of them. -/
theorem args3 : ∀ r ∈ ([main_arg0, main_arg1, main_arg2, main_arg3, main_arg4, main_arg5, main_arg6, main_arg8] : List (Ref sig .tc)), W3 m ρ c (Proc.devRef .tc r) = m ((c : Thread nD τ).loc r) :=
  fun r hr => hA_keep (W0 m ρ c) r hr

/-- The same at boundary 4, for the arguments still to be read. -/
theorem args4 : ∀ r ∈ ([main_arg2, main_arg3, main_arg4, main_arg5, main_arg6, main_arg8] : List (Ref sig .tc)), W4 m ρ c (Proc.devRef .tc r) = m ((c : Thread nD τ).loc r) := by
  intro r hr
  simp only [List.mem_cons, List.mem_nil_iff, or_false] at hr
  rcases hr with rfl | rfl | rfl | rfl | rfl | rfl <;> exact (W4_of_ne m ρ c _ (by decide)).trans (args3 m ρ c _ (by simp))

/-- The same at boundary 5, for the arguments still to be read. -/
theorem args5 : ∀ r ∈ ([main_arg3, main_arg4, main_arg5, main_arg6, main_arg8] : List (Ref sig .tc)), W5 m ρ c (Proc.devRef .tc r) = m ((c : Thread nD τ).loc r) := by
  intro r hr
  simp only [List.mem_cons, List.mem_nil_iff, or_false] at hr
  rcases hr with rfl | rfl | rfl | rfl | rfl <;> exact (h1_keep (W4 m ρ c) _ (by simp)).trans (args4 m ρ c _ (by simp))

/-- The same at boundary 6, for the arguments still to be read. -/
theorem args6 : ∀ r ∈ ([main_arg3, main_arg4, main_arg5, main_arg6, main_arg8] : List (Ref sig .tc)), W6 m ρ c (Proc.devRef .tc r) = m ((c : Thread nD τ).loc r) := by
  intro r hr
  simp only [List.mem_cons, List.mem_nil_iff, or_false] at hr
  rcases hr with rfl | rfl | rfl | rfl | rfl <;> exact (W6_of_ne m ρ c _ (by decide)).trans (args5 m ρ c _ (by simp))

/-- The same at boundary 7, for the arguments still to be read. -/
theorem args7 : ∀ r ∈ ([main_arg4, main_arg5, main_arg6, main_arg8] : List (Ref sig .tc)), W7 m ρ c (Proc.devRef .tc r) = m ((c : Thread nD τ).loc r) := by
  intro r hr
  simp only [List.mem_cons, List.mem_nil_iff, or_false] at hr
  rcases hr with rfl | rfl | rfl | rfl <;> exact (W7_of_ne m ρ c _ (by decide)).trans (args6 m ρ c _ (by simp))

/-- The same at boundary 8, for the arguments still to be read. -/
theorem args8 : ∀ r ∈ ([main_arg5, main_arg6, main_arg8] : List (Ref sig .tc)), W8 m ρ c (Proc.devRef .tc r) = m ((c : Thread nD τ).loc r) := by
  intro r hr
  simp only [List.mem_cons, List.mem_nil_iff, or_false] at hr
  rcases hr with rfl | rfl | rfl <;> exact (h3_keep (W7 m ρ c) _ (by simp)).trans (args7 m ρ c _ (by simp))

/-- The same at boundary 9, for the arguments still to be read. -/
theorem args9 : ∀ r ∈ ([main_arg5, main_arg6, main_arg8] : List (Ref sig .tc)), W9 m ρ c (Proc.devRef .tc r) = m ((c : Thread nD τ).loc r) := by
  intro r hr
  simp only [List.mem_cons, List.mem_nil_iff, or_false] at hr
  rcases hr with rfl | rfl | rfl <;> exact (W9_of_ne m ρ c _ (by decide)).trans (args8 m ρ c _ (by simp))

/-- The same at boundary 10, for the arguments still to be read. -/
theorem args10 : ∀ r ∈ ([main_arg6, main_arg8] : List (Ref sig .tc)), W10 m ρ c (Proc.devRef .tc r) = m ((c : Thread nD τ).loc r) := by
  intro r hr
  simp only [List.mem_cons, List.mem_nil_iff, or_false] at hr
  rcases hr with rfl | rfl <;> exact (W10_of_ne m ρ c _ (by decide)).trans (args9 m ρ c _ (by simp))

/-- The same at boundary 11, for the arguments still to be read. -/
theorem args11 : ∀ r ∈ ([main_arg8] : List (Ref sig .tc)), W11 m ρ c (Proc.devRef .tc r) = m ((c : Thread nD τ).loc r) := by
  intro r hr
  simp only [List.mem_cons, List.mem_nil_iff, or_false] at hr
  rcases hr with rfl <;> exact (h5_keep (W10 m ρ c) _ (by simp)).trans (args10 m ρ c _ (by simp))

/-- The same at boundary 12, for the arguments still to be read. -/
theorem args12 : ∀ r ∈ ([main_arg8] : List (Ref sig .tc)), W12 m ρ c (Proc.devRef .tc r) = m ((c : Thread nD τ).loc r) := by
  intro r hr
  simp only [List.mem_cons, List.mem_nil_iff, or_false] at hr
  rcases hr with rfl <;> exact (W12_of_ne m ρ c _ (by decide)).trans (args11 m ρ c _ (by simp))

/-- The edge lists and the coefficients, computed before the first region, are still there at boundary 4. -/
theorem live4 : ∀ r ∈ ([main_v3, main_v6, main_v31] : List (Ref sig .tc)), W4 m ρ c (Proc.devRef .tc r) = W3 m ρ c (Proc.devRef .tc r) := by
  intro r hr
  simp only [List.mem_cons, List.mem_nil_iff, or_false] at hr
  rcases hr with rfl | rfl | rfl <;> exact (W4_of_ne m ρ c _ (by decide))

/-- The edge lists and the coefficients, computed before the first region, are still there at boundary 5. -/
theorem live5 : ∀ r ∈ ([main_v3, main_v6, main_v31] : List (Ref sig .tc)), W5 m ρ c (Proc.devRef .tc r) = W3 m ρ c (Proc.devRef .tc r) := by
  intro r hr
  simp only [List.mem_cons, List.mem_nil_iff, or_false] at hr
  rcases hr with rfl | rfl | rfl <;> exact (h1_keep (W4 m ρ c) _ (by simp)).trans (live4 m ρ c _ (by simp))

/-- The edge lists and the coefficients, computed before the first region, are still there at boundary 6. -/
theorem live6 : ∀ r ∈ ([main_v3, main_v6, main_v31] : List (Ref sig .tc)), W6 m ρ c (Proc.devRef .tc r) = W3 m ρ c (Proc.devRef .tc r) := by
  intro r hr
  simp only [List.mem_cons, List.mem_nil_iff, or_false] at hr
  rcases hr with rfl | rfl | rfl <;> exact (W6_of_ne m ρ c _ (by decide)).trans (live5 m ρ c _ (by simp))

/-- The edge lists and the coefficients, computed before the first region, are still there at boundary 7. -/
theorem live7 : ∀ r ∈ ([main_v3, main_v6, main_v31] : List (Ref sig .tc)), W7 m ρ c (Proc.devRef .tc r) = W3 m ρ c (Proc.devRef .tc r) := by
  intro r hr
  simp only [List.mem_cons, List.mem_nil_iff, or_false] at hr
  rcases hr with rfl | rfl | rfl <;> exact (W7_of_ne m ρ c _ (by decide)).trans (live6 m ρ c _ (by simp))

/-- The edge lists and the coefficients, computed before the first region, are still there at boundary 8. -/
theorem live8 : ∀ r ∈ ([main_v3, main_v6, main_v31] : List (Ref sig .tc)), W8 m ρ c (Proc.devRef .tc r) = W3 m ρ c (Proc.devRef .tc r) := by
  intro r hr
  simp only [List.mem_cons, List.mem_nil_iff, or_false] at hr
  rcases hr with rfl | rfl | rfl <;> exact (h3_keep (W7 m ρ c) _ (by simp)).trans (live7 m ρ c _ (by simp))

/-- The edge lists and the coefficients, computed before the first region, are still there at boundary 9. -/
theorem live9 : ∀ r ∈ ([main_v3, main_v6, main_v31] : List (Ref sig .tc)), W9 m ρ c (Proc.devRef .tc r) = W3 m ρ c (Proc.devRef .tc r) := by
  intro r hr
  simp only [List.mem_cons, List.mem_nil_iff, or_false] at hr
  rcases hr with rfl | rfl | rfl <;> exact (W9_of_ne m ρ c _ (by decide)).trans (live8 m ρ c _ (by simp))

/-- The edge lists and the coefficients, computed before the first region, are still there at boundary 10. -/
theorem live10 : ∀ r ∈ ([main_v3, main_v6, main_v31] : List (Ref sig .tc)), W10 m ρ c (Proc.devRef .tc r) = W3 m ρ c (Proc.devRef .tc r) := by
  intro r hr
  simp only [List.mem_cons, List.mem_nil_iff, or_false] at hr
  rcases hr with rfl | rfl | rfl <;> exact (W10_of_ne m ρ c _ (by decide)).trans (live9 m ρ c _ (by simp))

end Cert.KernelIdeal.KKeep

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«105635_j5566277616603_1_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.ArrSpec.lean ====
/-
  Two whole-array functions over literal shapes, and how a block of each is computed from blocks of its operands.

  `matProd X W` is the product of a 50000 × 128 array and a 128 × 128 matrix; `biasRows g A R` adds the one row of a
  1 × 128 array to every row of a 50000 × 128 array and applies `g` to each entry. Cut into blocks of 5000 rows, block
  `b` of either depends only on block `b` of the large operand and on the whole small one: if a function of a block
  and the small operand has the entries of the product (of the biased rows), then at the block's rows it is the whole
  array's function.
-/
import Idealize.ShloMosaic.PureOps.Ideal
import Idealize.ShloMosaic.Lib.ValueIdx

noncomputable section

namespace Cert.Spec

open Idealize.ShloMosaic Idealize.ShloMosaic.ValueIdx
open scoped BigOperators

/-- The zero offsets of a rank-2 rectangle, as the constant function. -/
theorem zeroOff : (![0, 0] : Fin 2 → Nat) = fun _ => 0 := funext fun a => by fin_cases a <;> rfl

/-- The product of a 50000 × 128 array and a 128 × 128 matrix. -/
def matProd (X : (⟨2, ![50000, 128]⟩ : Shape).Idx → EReal) (W : (⟨2, ![128, 128]⟩ : Shape).Idx → EReal) :
    (⟨2, ![50000, 128]⟩ : Shape).Idx → EReal :=
  fun i => ∑ k : Fin 128, X (ix2 (i 0 : Fin 50000) k) * W (ix2 k (i 1 : Fin 128))

/-- Entry `(p, q)` of the product. -/
theorem matProd_ix2 (X : (⟨2, ![50000, 128]⟩ : Shape).Idx → EReal) (W : (⟨2, ![128, 128]⟩ : Shape).Idx → EReal)
    (p : Fin 50000) (q : Fin 128) : matProd X W (ix2 p q) = ∑ k : Fin 128, X (ix2 p k) * W (ix2 k q) := rfl

/-- A function `f` of a 5000-row block and the matrix that has the product's entries is, at the rows `5000·b …` the
    block was cut from, the product of the whole arrays. -/
theorem matProd_block
    (f : ((⟨2, ![5000, 128]⟩ : Shape).Idx → EReal) → ((⟨2, ![128, 128]⟩ : Shape).Idx → EReal) → (⟨2, ![5000, 128]⟩ : Shape).Idx → EReal)
    (hf : ∀ x0 x1 (p : Fin 5000) (q : Fin 128), f x0 x1 (ix2 p q) = ∑ k : Fin 128, x0 (ix2 p k) * x1 (ix2 k q))
    (X : (⟨2, ![50000, 128]⟩ : Shape).Idx → EReal) (W : (⟨2, ![128, 128]⟩ : Shape).Idx → EReal)
    (x0 : (⟨2, ![5000, 128]⟩ : Shape).Idx → EReal) (x1 : (⟨2, ![128, 128]⟩ : Shape).Idx → EReal) (b : Nat)
    (h0 : ∀ (y : (⟨2, ![5000, 128]⟩ : Shape).Idx) (i : (⟨2, ![50000, 128]⟩ : Shape).Idx),
      (i 0).val = b * 5000 + (y 0).val → (i 1).val = (y 1).val → x0 y = X i)
    (h1 : x1 = W)
    (j : (⟨2, ![5000, 128]⟩ : Shape).Idx) (i : (⟨2, ![50000, 128]⟩ : Shape).Idx)
    (hi0 : (i 0).val = b * 5000 + (j 0).val) (hi1 : (i 1).val = (j 1).val) :
    f x0 x1 j = matProd X W i := by
  obtain ⟨p, q, rfl⟩ : ∃ (p : Fin 5000) (q : Fin 128), j = ix2 p q := ⟨j 0, j 1, eq_ix2 j⟩
  rw [hf]
  subst h1
  unfold matProd
  refine Finset.sum_congr rfl fun k _ => ?_
  have hq : (i 1 : Fin 128) = q := Fin.ext hi1
  rw [hq, h0 (ix2 p k) (ix2 (i 0 : Fin 50000) k) hi0 rfl]

/-- Every row of a 50000 × 128 array plus the one row of a 1 × 128 array, `g` applied entry by entry. -/
def biasRows (g : EReal → EReal) (A : (⟨2, ![50000, 128]⟩ : Shape).Idx → EReal) (R : (⟨2, ![1, 128]⟩ : Shape).Idx → EReal) :
    (⟨2, ![50000, 128]⟩ : Shape).Idx → EReal :=
  fun i => g (A i + R (ix2 (0 : Fin 1) (i 1 : Fin 128)))

/-- Entry `(p, q)` of it. -/
theorem biasRows_ix2 (g : EReal → EReal) (A : (⟨2, ![50000, 128]⟩ : Shape).Idx → EReal) (R : (⟨2, ![1, 128]⟩ : Shape).Idx → EReal)
    (p : Fin 50000) (q : Fin 128) : biasRows g A R (ix2 p q) = g (A (ix2 p q) + R (ix2 (0 : Fin 1) q)) := rfl

/-- A function `f` of a 5000-row block and the row that has the biased rows' entries is, at the rows `5000·b …` the
    block was cut from, the whole array's biased rows. -/
theorem biasRows_block (g : EReal → EReal)
    (f : ((⟨2, ![5000, 128]⟩ : Shape).Idx → EReal) → ((⟨2, ![1, 128]⟩ : Shape).Idx → EReal) → (⟨2, ![5000, 128]⟩ : Shape).Idx → EReal)
    (hf : ∀ x0 x1 (p : Fin 5000) (q : Fin 128), f x0 x1 (ix2 p q) = g (x0 (ix2 p q) + x1 (ix2 (0 : Fin 1) q)))
    (A : (⟨2, ![50000, 128]⟩ : Shape).Idx → EReal) (R : (⟨2, ![1, 128]⟩ : Shape).Idx → EReal)
    (x0 : (⟨2, ![5000, 128]⟩ : Shape).Idx → EReal) (x1 : (⟨2, ![1, 128]⟩ : Shape).Idx → EReal) (b : Nat)
    (h0 : ∀ (y : (⟨2, ![5000, 128]⟩ : Shape).Idx) (i : (⟨2, ![50000, 128]⟩ : Shape).Idx),
      (i 0).val = b * 5000 + (y 0).val → (i 1).val = (y 1).val → x0 y = A i)
    (h1 : x1 = R)
    (j : (⟨2, ![5000, 128]⟩ : Shape).Idx) (i : (⟨2, ![50000, 128]⟩ : Shape).Idx)
    (hi0 : (i 0).val = b * 5000 + (j 0).val) (hi1 : (i 1).val = (j 1).val) :
    f x0 x1 j = biasRows g A R i := by
  obtain ⟨p, q, rfl⟩ : ∃ (p : Fin 5000) (q : Fin 128), j = ix2 p q := ⟨j 0, j 1, eq_ix2 j⟩
  rw [hf]
  subst h1
  unfold biasRows
  have hq : (i 1 : Fin 128) = q := Fin.ext hi1
  rw [hq, h0 (ix2 p q) i hi0 hi1]

end Cert.Spec

end
-- ==== Proof.PayMM.lean ====
/-
  The matrix-product bodies at an entry. Each of the three product kernels rounds its two operands to a narrower
  format (the identity on the extended reals) and multiplies a 5000 × 128 block by a 128 × 128 matrix into an
  all-zero accumulator: entry (p, q) of what it stores is Σ_k block[p, k] · matrix[k, q].
-/
import proofs.«105635_j5566277616603_1_alg».proof.Proof.Gen.KernelIdeal.Skeleton
import proofs.«105635_j5566277616603_1_alg».proof.Proof.LibMatmulRead
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.ValueIdx
open scoped BigOperators

/-- The product's contraction record is of the rows-by-columns form. -/
theorem dot_rowsByCols : MatmulRead.RowsByCols dot_S5000x128_S128x128_S5000x128_1_0_0_1_n_n :=
  ⟨rfl, rfl, rfl, rfl, rfl, rfl⟩

/-- A block times the matrix, into zero, at entry `(p, q)`. -/
theorem matmul_block_apply (x0 : FVec Ideal S5000x128 .bf16) (x1 : FVec Ideal S128x128 .bf16) (p : Fin 5000) (q : Fin 128) :
    matmul dot_S5000x128_S128x128_S5000x128_1_0_0_1_n_n none x0 x1 (constant S5000x128 .f32 0x00000000#32) (ix2 p q)
      = ∑ k : Fin 128, x0 (ix2 p k) * x1 (ix2 k q) :=
  MatmulRead.matmul_zero_ix2 dot_rowsByCols rfl rfl none x0 x1 p q

/-- The first product kernel's stored value at entry `(p, q)`. -/
theorem k0_pay1_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact matmul_block_apply _ _ p q

/-- The second product kernel's stored value at entry `(p, q)` (its block passes through an identity cast first). -/
theorem k2_pay1_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact matmul_block_apply _ _ p q

/-- The third product kernel's stored value at entry `(p, q)`. -/
theorem k4_pay1_apply (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) := by
  unfold k4_pay1
  rw [shapeCast_self]
  exact matmul_block_apply _ _ p q

end Cert.KernelIdeal.RegionVal

end
-- ==== Proof.RegionMM0.lean ====
/-
  The first matrix-product region as one array. The region walks ten blocks of 5000 rows of a 50000 × 128
  array; at block t it multiplies rows 5000·t … 5000·t + 4999 by the whole 128 × 128 matrix and writes the product
  back to the same rows of the result. Every row lies in exactly one block (row r in block r / 5000), so the
  result array after the region is the product of the two arrays: entry (p, q) is Σ_k x[p, k] · w[k, q].
-/
import proofs.«105635_j5566277616603_1_alg».proof.Proof.Gen.KernelIdeal.Frame
import proofs.«105635_j5566277616603_1_alg».proof.Proof.PayMM
import proofs.«105635_j5566277616603_1_alg».proof.Proof.ArrSpec
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The block indices of the three windows at grid point `t`: the row-block windows sit at block `(t, 0)`, the
    matrix at block `(0, 0)`. Decided over the ten points. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block at point `t` holds rows `5000·t …` of the left array. -/
theorem rows0_read (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -, -, -, -⟩ := blockIdx0 t
  unfold iblk0
  rw [View.read_apply]
  show (V c main_arg0 : S50000x128.Idx → EReal) _ = (V c main_arg0 : S50000x128.Idx → EReal) i
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The matrix window's block at every point is the whole matrix. -/
theorem matrix0_read (c : Dev nD) (t : Fin cfg0.N) (y : S128x128.Idx) :
    (iblk0 V c 1 t : Vec Ideal S128x128 .f32) y = (V c main_arg1 : S128x128.Idx → EReal) y := by
  obtain ⟨-, -, e0, e1, -, -⟩ := blockIdx0 t
  unfold iblk0
  rw [View.read_apply]
  show (V c main_arg1 : S128x128.Idx → EReal) _ = (V c main_arg1 : S128x128.Idx → EReal) y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- What point `t` writes back is block `t` of the product of the two arrays. -/
theorem flushed0_eq (c : Dev nD) (t : Fin cfg0.N) :
    (dat0 (F := Ideal) V c).flushed 2 t
      = ((cfg0.win 2).blk t).view.read (Elt Ideal) (Cert.Spec.matProd (V c main_arg0) (V c main_arg1)) := by
  show (cfg0.win 2).cut (grid0.coords t) ((dat0 V c).after 2 t) = _
  rw [after0_2]
  unfold out0_2
  rw [View.canon_unit_zero Cert.Spec.zeroOff]
  simp only [View.ld_unit_zero (S := S5000x128) Cert.Spec.zeroOff, View.ld_unit_zero (S := S128x128) Cert.Spec.zeroOff]
  obtain ⟨-, -, -, -, e0, e1⟩ := blockIdx0 t
  funext j
  refine Cert.Spec.matProd_block (k0_pay1 (F := Ideal)) k0_pay1_apply (V c main_arg0) (V c main_arg1) (iblk0 V c 0 t) (iblk0 V c 1 t) t.val
    (rows0_read V c t) (funext (matrix0_read V c t)) j (((cfg0.win 2).blk t).view.emb j) ?_ ?_
  · show win0_2.index t (0 : Fin 2) * 5000 + 1 * (j 0).val = t.val * 5000 + (j 0).val; rw [e0]; omega
  · show win0_2.index t (1 : Fin 2) * 128 + 1 * (j 1).val = (j 1).val; rw [e1]; omega

/-- An index of the result array is in point `t`'s block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index of the result array is in some point's block: row `r` in block `r / 5000`. -/
theorem covered0 (i : S50000x128.Idx) :
    ∃ t : Fin cfg0.N, (cfg0.win 2).flush t = true ∧ i ∈ ((cfg0.win 2).blk t).view.set := by
  have hN : grid0.N = 10 := N_0
  have hi0 : (i 0).val < 50000 := (i 0).isLt
  have hi1 : (i 1).val < 128 := (i 1).isLt
  let t : Fin cfg0.N := ⟨(i 0).val / 5000, by show (i 0).val / 5000 < grid0.N; rw [hN]; omega⟩
  obtain ⟨-, -, -, -, e0, e1⟩ := blockIdx0 t
  have ht : t.val = (i 0).val / 5000 := rfl
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

/-- The result array after the region is the product of the two arrays. -/
theorem region0_arr (c : Dev nD) :
    (dat0 (F := Ideal) V c).arrAt 2 cfg0.N = Cert.Spec.matProd (V c main_arg0) (V c main_arg1) :=
  (dat0 (F := Ideal) V c).arrAt_eq_of_cover 2 (Cert.Spec.matProd (V c main_arg0) (V c main_arg1))
    (fun t _ => flushed0_eq V c t) covered0

/-- Entry `(p, q)` of the result array after the region, the two operand arrays named `X` and `W`. -/
theorem region0_val (c : Dev nD) (X : FVec Ideal S50000x128 .f32) (W : FVec Ideal S128x128 .f32)
    (hX : V c main_arg0 = X) (hW : V c main_arg1 = W) (p : Fin 50000) (q : Fin 128) :
    (dat0 (F := Ideal) V c).arrAt 2 cfg0.N (ix2 p q) = ∑ k : Fin 128, X (ix2 p k) * W (ix2 k q) := by
  subst hX hW
  rw [region0_arr]
  rfl

end Cert.KernelIdeal.RegionVal

end
-- ==== Proof.PayBA.lean ====
/-
  The bias bodies at an entry. Each adds the one row of a 1 × 128 array to every row of a 5000 × 128 block; two of
  them then apply the leaky rectifier (keep a positive value, multiply any other by the slope), the last one does not.
-/
import proofs.«105635_j5566277616603_1_alg».proof.Proof.Gen.KernelIdeal.Skeleton
import proofs.«105635_j5566277616603_1_alg».proof.Proof.Lrelu
import Idealize.ShloMosaic.Lib.Pipeline.Value
import Idealize.ShloMosaic.Lib.ValueIdx
import Idealize.ShloMosaic.Lib.ValueLayout

noncomputable section

namespace Cert.KernelIdeal.RegionVal

open Cert.KernelIdeal Cert.KernelIdeal.Gen Idealize.ShloMosaic Idealize.ShloMosaic.ValueIdx

/-- The block plus the row, at entry `(p, q)`: the casts are identities and the broadcast reads the row at `q`. -/
theorem bias_apply (x0 : Vec Ideal S5000x128 .f32) (x1 : Vec Ideal S1x128 .f32) (p : Fin 5000) (q : Fin 128) :
    addf (shapeCast S5000x128 x0 shapeCasts_S5000x128_S5000x128 : FVec Ideal S5000x128 .f32)
        (broadcastTo S5000x128 (shapeCast S1x128 x1 shapeCasts_S1x128_S1x128) broadcasts_S1x128_S5000x128) (ix2 p q)
      = x0 (ix2 p q) + x1 (ix2 (0 : Fin 1) q) := by
  rw [shapeCast_self, shapeCast_self, addf_apply, broadcastTo_1b_ab_apply]

/-- The first rectifier kernel's stored value at entry `(p, q)`. -/
theorem k1_pay1_apply (x0 : Vec Ideal S5000x128 .f32) (x1 : Vec Ideal S1x128 .f32) (p : Fin 5000) (q : Fin 128) :
    k1_pay1 (F := Ideal) x0 x1 (ix2 p q) = Cert.Spec.lrelu (x0 (ix2 p q) + x1 (ix2 (0 : Fin 1) q)) := by
  unfold k1_pay1
  rw [select_apply, cmpf_apply, mulf_apply, broadcast_apply, broadcast_apply, bias_apply]
  exact Cert.Spec.select_gt_zero _

/-- The second rectifier kernel's stored value at entry `(p, q)`. -/
theorem k3_pay1_apply (x0 : Vec Ideal S5000x128 .f32) (x1 : Vec Ideal S1x128 .f32) (p : Fin 5000) (q : Fin 128) :
    k3_pay1 (F := Ideal) x0 x1 (ix2 p q) = Cert.Spec.lrelu (x0 (ix2 p q) + x1 (ix2 (0 : Fin 1) q)) := by
  unfold k3_pay1
  rw [select_apply, cmpf_apply, mulf_apply, broadcast_apply, broadcast_apply, bias_apply]
  exact Cert.Spec.select_gt_zero _

/-- The last kernel's stored value at entry `(p, q)`: the block plus the row, no rectifier. -/
theorem k5_pay1_apply (x0 : Vec Ideal S5000x128 .f32) (x1 : Vec Ideal S1x128 .f32) (p : Fin 5000) (q : Fin 128) :
    k5_pay1 (F := Ideal) x0 x1 (ix2 p q) = x0 (ix2 p q) + x1 (ix2 (0 : Fin 1) q) := by
  unfold k5_pay1
  exact bias_apply x0 x1 p q

end Cert.KernelIdeal.RegionVal

end
-- ==== Proof.RegionBA1.lean ====
/-
  The first rectifier region as one array. The region walks ten blocks of 5000 rows of a 50000 × 128 array; at
  block t it adds the one row of a 1 × 128 array to rows 5000·t … 5000·t + 4999, applies the leaky rectifier to each
  entry, and writes the block back to the same rows of the result. Every row lies in exactly one block (row r in
  block r / 5000), so entry (p, q) of the result array is the rectifier of a[p, q] + r[0, q].
-/
import proofs.«105635_j5566277616603_1_alg».proof.Proof.Gen.KernelIdeal.Frame
import proofs.«105635_j5566277616603_1_alg».proof.Proof.PayBA
import proofs.«105635_j5566277616603_1_alg».proof.Proof.ArrSpec
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of the three windows at grid point `t`: the row-block windows sit at block `(t, 0)`, the
    one-row array at block `(0, 0)`. Decided over the ten points. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row block at point `t` holds rows `5000·t …` of the large array. -/
theorem rows1_read (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v45 : S50000x128.Idx → EReal) i := by
  obtain ⟨e0, e1, -, -, -, -⟩ := blockIdx1 t
  unfold iblk1
  rw [View.read_apply]
  show (V c main_v45 : S50000x128.Idx → EReal) _ = (V c main_v45 : S50000x128.Idx → EReal) i
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The one-row window's block at every point is the whole one-row array. -/
theorem row1_read (c : Dev nD) (t : Fin cfg1.N) (y : S1x128.Idx) :
    (iblk1 V c 1 t : Vec Ideal S1x128 .f32) y = (V c main_v46 : S1x128.Idx → EReal) y := by
  obtain ⟨-, -, e0, e1, -, -⟩ := blockIdx1 t
  unfold iblk1
  rw [View.read_apply]
  show (V c main_v46 : S1x128.Idx → EReal) _ = (V c main_v46 : S1x128.Idx → EReal) y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- What point `t` writes back is block `t` of the whole array's biased rows. -/
theorem flushed1_eq (c : Dev nD) (t : Fin cfg1.N) :
    (dat1 (F := Ideal) V c).flushed 2 t
      = ((cfg1.win 2).blk t).view.read (Elt Ideal) (Cert.Spec.biasRows Cert.Spec.lrelu (V c main_v45) (V c main_v46)) := by
  show (cfg1.win 2).cut (grid1.coords t) ((dat1 V c).after 2 t) = _
  rw [after1_2]
  unfold out1_2
  rw [View.canon_unit_zero Cert.Spec.zeroOff]
  simp only [View.ld_unit_zero (S := S5000x128) Cert.Spec.zeroOff, View.ld_unit_zero (S := S1x128) Cert.Spec.zeroOff]
  obtain ⟨-, -, -, -, e0, e1⟩ := blockIdx1 t
  funext j
  refine Cert.Spec.biasRows_block Cert.Spec.lrelu (k1_pay1 (F := Ideal)) k1_pay1_apply (V c main_v45) (V c main_v46) (iblk1 V c 0 t) (iblk1 V c 1 t) t.val
    (rows1_read V c t) (funext (row1_read V c t)) j (((cfg1.win 2).blk t).view.emb j) ?_ ?_
  · show win1_2.index t (0 : Fin 2) * 5000 + 1 * (j 0).val = t.val * 5000 + (j 0).val; rw [e0]; omega
  · show win1_2.index t (1 : Fin 2) * 128 + 1 * (j 1).val = (j 1).val; rw [e1]; omega

/-- An index of the result array is in point `t`'s block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every index of the result array is in some point's block: row `r` in block `r / 5000`. -/
theorem covered1 (i : S50000x128.Idx) :
    ∃ t : Fin cfg1.N, (cfg1.win 2).flush t = true ∧ i ∈ ((cfg1.win 2).blk t).view.set := by
  have hN : grid1.N = 10 := N_1
  have hi0 : (i 0).val < 50000 := (i 0).isLt
  have hi1 : (i 1).val < 128 := (i 1).isLt
  let t : Fin cfg1.N := ⟨(i 0).val / 5000, by show (i 0).val / 5000 < grid1.N; rw [hN]; omega⟩
  obtain ⟨-, -, -, -, e0, e1⟩ := blockIdx1 t
  have ht : t.val = (i 0).val / 5000 := rfl
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; rw [e0, ht]; omega
  | ⟨1, _⟩ => show win1_2.index t (1 : Fin 2) * 128 ≤ (i 1).val ∧ (i 1).val < win1_2.index t (1 : Fin 2) * 128 + 128; rw [e1]; omega

/-- The result array after the region: the leaky rectifier of every row plus the one row. -/
theorem region1_arr (c : Dev nD) :
    (dat1 (F := Ideal) V c).arrAt 2 cfg1.N = Cert.Spec.biasRows Cert.Spec.lrelu (V c main_v45) (V c main_v46) :=
  (dat1 (F := Ideal) V c).arrAt_eq_of_cover 2 (Cert.Spec.biasRows Cert.Spec.lrelu (V c main_v45) (V c main_v46))
    (fun t _ => flushed1_eq V c t) covered1

/-- Entry `(p, q)` of the result array after the region, the two operand arrays named `A` and `R`. -/
theorem region1_val (c : Dev nD) (A : FVec Ideal S50000x128 .f32) (R : FVec Ideal S1x128 .f32)
    (hA : V c main_v45 = A) (hR : V c main_v46 = R) (p : Fin 50000) (q : Fin 128) :
    (dat1 (F := Ideal) V c).arrAt 2 cfg1.N (ix2 p q) = Cert.Spec.lrelu (A (ix2 p q) + R (ix2 (0 : Fin 1) q)) := by
  subst hA hR
  rw [region1_arr]
  rfl

end Cert.KernelIdeal.RegionVal

end
-- ==== Proof.RegionMM2.lean ====
/-
  The second matrix-product region as one array. The region walks ten blocks of 5000 rows of a 50000 × 128
  array; at block t it multiplies rows 5000·t … 5000·t + 4999 by the whole 128 × 128 matrix and writes the product
  back to the same rows of the result. Every row lies in exactly one block (row r in block r / 5000), so the
  result array after the region is the product of the two arrays: entry (p, q) is Σ_k x[p, k] · w[k, q].
-/
import proofs.«105635_j5566277616603_1_alg».proof.Proof.Gen.KernelIdeal.Frame
import proofs.«105635_j5566277616603_1_alg».proof.Proof.PayMM
import proofs.«105635_j5566277616603_1_alg».proof.Proof.ArrSpec
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The block indices of the three windows at grid point `t`: the row-block windows sit at block `(t, 0)`, the
    matrix at block `(0, 0)`. Decided over the ten points. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row block at point `t` holds rows `5000·t …` of the left array. -/
theorem rows2_read (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_v47 : S50000x128.Idx → EReal) i := by
  obtain ⟨e0, e1, -, -, -, -⟩ := blockIdx2 t
  unfold iblk2
  rw [View.read_apply]
  show (V c main_v47 : S50000x128.Idx → EReal) _ = (V c main_v47 : S50000x128.Idx → EReal) i
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The matrix window's block at every point is the whole matrix. -/
theorem matrix2_read (c : Dev nD) (t : Fin cfg2.N) (y : S128x128.Idx) :
    (iblk2 V c 1 t : Vec Ideal S128x128 .f32) y = (V c main_arg3 : S128x128.Idx → EReal) y := by
  obtain ⟨-, -, e0, e1, -, -⟩ := blockIdx2 t
  unfold iblk2
  rw [View.read_apply]
  show (V c main_arg3 : S128x128.Idx → EReal) _ = (V c main_arg3 : S128x128.Idx → EReal) y
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- What point `t` writes back is block `t` of the product of the two arrays. -/
theorem flushed2_eq (c : Dev nD) (t : Fin cfg2.N) :
    (dat2 (F := Ideal) V c).flushed 2 t
      = ((cfg2.win 2).blk t).view.read (Elt Ideal) (Cert.Spec.matProd (V c main_v47) (V c main_arg3)) := by
  show (cfg2.win 2).cut (grid2.coords t) ((dat2 V c).after 2 t) = _
  rw [after2_2]
  unfold out2_2
  rw [View.canon_unit_zero Cert.Spec.zeroOff]
  simp only [View.ld_unit_zero (S := S5000x128) Cert.Spec.zeroOff, View.ld_unit_zero (S := S128x128) Cert.Spec.zeroOff]
  obtain ⟨-, -, -, -, e0, e1⟩ := blockIdx2 t
  funext j
  refine Cert.Spec.matProd_block (k2_pay1 (F := Ideal)) k2_pay1_apply (V c main_v47) (V c main_arg3) (iblk2 V c 0 t) (iblk2 V c 1 t) t.val
    (rows2_read V c t) (funext (matrix2_read V c t)) j (((cfg2.win 2).blk t).view.emb j) ?_ ?_
  · show win2_2.index t (0 : Fin 2) * 5000 + 1 * (j 0).val = t.val * 5000 + (j 0).val; rw [e0]; omega
  · show win2_2.index t (1 : Fin 2) * 128 + 1 * (j 1).val = (j 1).val; rw [e1]; omega

/-- An index of the result array is in point `t`'s block iff each coordinate is in the block's range on its axis. -/
theorem mem_block2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every index of the result array is in some point's block: row `r` in block `r / 5000`. -/
theorem covered2 (i : S50000x128.Idx) :
    ∃ t : Fin cfg2.N, (cfg2.win 2).flush t = true ∧ i ∈ ((cfg2.win 2).blk t).view.set := by
  have hN : grid2.N = 10 := N_2
  have hi0 : (i 0).val < 50000 := (i 0).isLt
  have hi1 : (i 1).val < 128 := (i 1).isLt
  let t : Fin cfg2.N := ⟨(i 0).val / 5000, by show (i 0).val / 5000 < grid2.N; rw [hN]; omega⟩
  obtain ⟨-, -, -, -, e0, e1⟩ := blockIdx2 t
  have ht : t.val = (i 0).val / 5000 := rfl
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 128 ≤ (i 1).val ∧ (i 1).val < win2_2.index t (1 : Fin 2) * 128 + 128; rw [e1]; omega

/-- The result array after the region is the product of the two arrays. -/
theorem region2_arr (c : Dev nD) :
    (dat2 (F := Ideal) V c).arrAt 2 cfg2.N = Cert.Spec.matProd (V c main_v47) (V c main_arg3) :=
  (dat2 (F := Ideal) V c).arrAt_eq_of_cover 2 (Cert.Spec.matProd (V c main_v47) (V c main_arg3))
    (fun t _ => flushed2_eq V c t) covered2

/-- Entry `(p, q)` of the result array after the region, the two operand arrays named `X` and `W`. -/
theorem region2_val (c : Dev nD) (X : FVec Ideal S50000x128 .f32) (W : FVec Ideal S128x128 .f32)
    (hX : V c main_v47 = X) (hW : V c main_arg3 = W) (p : Fin 50000) (q : Fin 128) :
    (dat2 (F := Ideal) V c).arrAt 2 cfg2.N (ix2 p q) = ∑ k : Fin 128, X (ix2 p k) * W (ix2 k q) := by
  subst hX hW
  rw [region2_arr]
  rfl

end Cert.KernelIdeal.RegionVal

end
-- ==== Proof.RegionBA3.lean ====
/-
  The second rectifier region as one array. The region walks ten blocks of 5000 rows of a 50000 × 128 array; at
  block t it adds the one row of a 1 × 128 array to rows 5000·t … 5000·t + 4999, applies the leaky rectifier to each
  entry, and writes the block back to the same rows of the result. Every row lies in exactly one block (row r in
  block r / 5000), so entry (p, q) of the result array is the rectifier of a[p, q] + r[0, q].
-/
import proofs.«105635_j5566277616603_1_alg».proof.Proof.Gen.KernelIdeal.Frame
import proofs.«105635_j5566277616603_1_alg».proof.Proof.PayBA
import proofs.«105635_j5566277616603_1_alg».proof.Proof.ArrSpec
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of the three windows at grid point `t`: the row-block windows sit at block `(t, 0)`, the
    one-row array at block `(0, 0)`. Decided over the ten points. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row block at point `t` holds rows `5000·t …` of the large array. -/
theorem rows3_read (c : Dev nD) (t : Fin cfg3.N) (y : S5000x128.Idx) (i : S50000x128.Idx)
    (h0 : (i 0).val = t.val * 5000 + (y 0).val) (h1 : (i 1).val = (y 1).val) :
    (iblk3 V c 0 t : Vec Ideal S5000x128 .f32) y = (V c main_v61 : S50000x128.Idx → EReal) i := by
  obtain ⟨e0, e1, -, -, -, -⟩ := blockIdx3 t
  unfold iblk3
  rw [View.read_apply]
  show (V c main_v61 : S50000x128.Idx → EReal) _ = (V c main_v61 : S50000x128.Idx → EReal) i
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The one-row window's block at every point is the whole one-row array. -/
theorem row3_read (c : Dev nD) (t : Fin cfg3.N) (y : S1x128.Idx) :
    (iblk3 V c 1 t : Vec Ideal S1x128 .f32) y = (V c main_v62 : S1x128.Idx → EReal) y := by
  obtain ⟨-, -, e0, e1, -, -⟩ := blockIdx3 t
  unfold iblk3
  rw [View.read_apply]
  show (V c main_v62 : S1x128.Idx → EReal) _ = (V c main_v62 : S1x128.Idx → EReal) y
  congr 1
  funext a
  apply Fin.ext
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

/-- What point `t` writes back is block `t` of the whole array's biased rows. -/
theorem flushed3_eq (c : Dev nD) (t : Fin cfg3.N) :
    (dat3 (F := Ideal) V c).flushed 2 t
      = ((cfg3.win 2).blk t).view.read (Elt Ideal) (Cert.Spec.biasRows Cert.Spec.lrelu (V c main_v61) (V c main_v62)) := by
  show (cfg3.win 2).cut (grid3.coords t) ((dat3 V c).after 2 t) = _
  rw [after3_2]
  unfold out3_2
  rw [View.canon_unit_zero Cert.Spec.zeroOff]
  simp only [View.ld_unit_zero (S := S5000x128) Cert.Spec.zeroOff, View.ld_unit_zero (S := S1x128) Cert.Spec.zeroOff]
  obtain ⟨-, -, -, -, e0, e1⟩ := blockIdx3 t
  funext j
  refine Cert.Spec.biasRows_block Cert.Spec.lrelu (k3_pay1 (F := Ideal)) k3_pay1_apply (V c main_v61) (V c main_v62) (iblk3 V c 0 t) (iblk3 V c 1 t) t.val
    (rows3_read V c t) (funext (row3_read V c t)) j (((cfg3.win 2).blk t).view.emb j) ?_ ?_
  · show win3_2.index t (0 : Fin 2) * 5000 + 1 * (j 0).val = t.val * 5000 + (j 0).val; rw [e0]; omega
  · show win3_2.index t (1 : Fin 2) * 128 + 1 * (j 1).val = (j 1).val; rw [e1]; omega

/-- An index of the result array is in point `t`'s block iff each coordinate is in the block's range on its axis. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every index of the result array is in some point's block: row `r` in block `r / 5000`. -/
theorem covered3 (i : S50000x128.Idx) :
    ∃ t : Fin cfg3.N, (cfg3.win 2).flush t = true ∧ i ∈ ((cfg3.win 2).blk t).view.set := by
  have hN : grid3.N = 10 := N_3
  have hi0 : (i 0).val < 50000 := (i 0).isLt
  have hi1 : (i 1).val < 128 := (i 1).isLt
  let t : Fin cfg3.N := ⟨(i 0).val / 5000, by show (i 0).val / 5000 < grid3.N; rw [hN]; omega⟩
  obtain ⟨-, -, -, -, e0, e1⟩ := blockIdx3 t
  have ht : t.val = (i 0).val / 5000 := rfl
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; rw [e0, ht]; omega
  | ⟨1, _⟩ => show win3_2.index t (1 : Fin 2) * 128 ≤ (i 1).val ∧ (i 1).val < win3_2.index t (1 : Fin 2) * 128 + 128; rw [e1]; omega

/-- The result array after the region: the leaky rectifier of every row plus the one row. -/
theorem region3_arr (c : Dev nD) :
    (dat3 (F := Ideal) V c).arrAt 2 cfg3.N = Cert.Spec.biasRows Cert.Spec.lrelu (V c main_v61) (V c main_v62) :=
  (dat3 (F := Ideal) V c).arrAt_eq_of_cover 2 (Cert.Spec.biasRows Cert.Spec.lrelu (V c main_v61) (V c main_v62))
    (fun t _ => flushed3_eq V c t) covered3

/-- Entry `(p, q)` of the result array after the region, the two operand arrays named `A` and `R`. -/
theorem region3_val (c : Dev nD) (A : FVec Ideal S50000x128 .f32) (R : FVec Ideal S1x128 .f32)
    (hA : V c main_v61 = A) (hR : V c main_v62 = R) (p : Fin 50000) (q : Fin 128) :
    (dat3 (F := Ideal) V c).arrAt 2 cfg3.N (ix2 p q) = Cert.Spec.lrelu (A (ix2 p q) + R (ix2 (0 : Fin 1) q)) := by
  subst hA hR
  rw [region3_arr]
  rfl

end Cert.KernelIdeal.RegionVal

end
-- ==== Proof.RegionMM4.lean ====
/-
  The third matrix-product region as one array. The region walks ten blocks of 5000 rows of a 50000 × 128
  array; at block t it multiplies rows 5000·t … 5000·t + 4999 by the whole 128 × 128 matrix and writes the product
  back to the same rows of the result. Every row lies in exactly one block (row r in block r / 5000), so the
  result array after the region is the product of the two arrays: entry (p, q) is Σ_k x[p, k] · w[k, q].
-/
import proofs.«105635_j5566277616603_1_alg».proof.Proof.Gen.KernelIdeal.Frame
import proofs.«105635_j5566277616603_1_alg».proof.Proof.PayMM
import proofs.«105635_j5566277616603_1_alg».proof.Proof.ArrSpec
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The block indices of the three windows at grid point `t`: the row-block windows sit at block `(t, 0)`, the
    matrix at block `(0, 0)`. Decided over the ten points. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The row block at point `t` holds rows `5000·t …` of the left array. -/
theorem rows4_read (c : Dev nD) (t : Fin cfg4.N) (y : S5000x128.Idx) (i : S50000x128.Idx)
    (h0 : (i 0).val = t.val * 5000 + (y 0).val) (h1 : (i 1).val = (y 1).val) :
    (iblk4 V c 0 t : Vec Ideal S5000x128 .f32) y = (V c main_v63 : S50000x128.Idx → EReal) i := by
  obtain ⟨e0, e1, -, -, -, -⟩ := blockIdx4 t
  unfold iblk4
  rw [View.read_apply]
  show (V c main_v63 : S50000x128.Idx → EReal) _ = (V c main_v63 : S50000x128.Idx → EReal) i
  congr 1
  funext a
  apply Fin.ext
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- The matrix window's block at every point is the whole matrix. -/
theorem matrix4_read (c : Dev nD) (t : Fin cfg4.N) (y : S128x128.Idx) :
    (iblk4 V c 1 t : Vec Ideal S128x128 .f32) y = (V c main_arg5 : S128x128.Idx → EReal) y := by
  obtain ⟨-, -, e0, e1, -, -⟩ := blockIdx4 t
  unfold iblk4
  rw [View.read_apply]
  show (V c main_arg5 : S128x128.Idx → EReal) _ = (V c main_arg5 : S128x128.Idx → EReal) y
  congr 1
  funext a
  apply Fin.ext
  match a with
  | ⟨0, _⟩ => show win4_1.index t (0 : Fin 2) * 128 + 1 * (y 0).val = (y 0).val; rw [e0]; omega
  | ⟨1, _⟩ => show win4_1.index t (1 : Fin 2) * 128 + 1 * (y 1).val = (y 1).val; rw [e1]; omega

/-- What point `t` writes back is block `t` of the product of the two arrays. -/
theorem flushed4_eq (c : Dev nD) (t : Fin cfg4.N) :
    (dat4 (F := Ideal) V c).flushed 2 t
      = ((cfg4.win 2).blk t).view.read (Elt Ideal) (Cert.Spec.matProd (V c main_v63) (V c main_arg5)) := by
  show (cfg4.win 2).cut (grid4.coords t) ((dat4 V c).after 2 t) = _
  rw [after4_2]
  unfold out4_2
  rw [View.canon_unit_zero Cert.Spec.zeroOff]
  simp only [View.ld_unit_zero (S := S5000x128) Cert.Spec.zeroOff, View.ld_unit_zero (S := S128x128) Cert.Spec.zeroOff]
  obtain ⟨-, -, -, -, e0, e1⟩ := blockIdx4 t
  funext j
  refine Cert.Spec.matProd_block (k4_pay1 (F := Ideal)) k4_pay1_apply (V c main_v63) (V c main_arg5) (iblk4 V c 0 t) (iblk4 V c 1 t) t.val
    (rows4_read V c t) (funext (matrix4_read V c t)) j (((cfg4.win 2).blk t).view.emb j) ?_ ?_
  · show win4_2.index t (0 : Fin 2) * 5000 + 1 * (j 0).val = t.val * 5000 + (j 0).val; rw [e0]; omega
  · show win4_2.index t (1 : Fin 2) * 128 + 1 * (j 1).val = (j 1).val; rw [e1]; omega

/-- An index of the result array is in point `t`'s block iff each coordinate is in the block's range on its axis. -/
theorem mem_block4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v64).slice (win4_2.rect t)).set ↔ _
  rw [View.set_slice_whole, Rect.mem_set_unit]
  exact Iff.rfl

/-- Every index of the result array is in some point's block: row `r` in block `r / 5000`. -/
theorem covered4 (i : S50000x128.Idx) :
    ∃ t : Fin cfg4.N, (cfg4.win 2).flush t = true ∧ i ∈ ((cfg4.win 2).blk t).view.set := by
  have hN : grid4.N = 10 := N_4
  have hi0 : (i 0).val < 50000 := (i 0).isLt
  have hi1 : (i 1).val < 128 := (i 1).isLt
  let t : Fin cfg4.N := ⟨(i 0).val / 5000, by show (i 0).val / 5000 < grid4.N; rw [hN]; omega⟩
  obtain ⟨-, -, -, -, e0, e1⟩ := blockIdx4 t
  have ht : t.val = (i 0).val / 5000 := rfl
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; rw [e0, ht]; omega
  | ⟨1, _⟩ => show win4_2.index t (1 : Fin 2) * 128 ≤ (i 1).val ∧ (i 1).val < win4_2.index t (1 : Fin 2) * 128 + 128; rw [e1]; omega

/-- The result array after the region is the product of the two arrays. -/
theorem region4_arr (c : Dev nD) :
    (dat4 (F := Ideal) V c).arrAt 2 cfg4.N = Cert.Spec.matProd (V c main_v63) (V c main_arg5) :=
  (dat4 (F := Ideal) V c).arrAt_eq_of_cover 2 (Cert.Spec.matProd (V c main_v63) (V c main_arg5))
    (fun t _ => flushed4_eq V c t) covered4

/-- Entry `(p, q)` of the result array after the region, the two operand arrays named `X` and `W`. -/
theorem region4_val (c : Dev nD) (X : FVec Ideal S50000x128 .f32) (W : FVec Ideal S128x128 .f32)
    (hX : V c main_v63 = X) (hW : V c main_arg5 = W) (p : Fin 50000) (q : Fin 128) :
    (dat4 (F := Ideal) V c).arrAt 2 cfg4.N (ix2 p q) = ∑ k : Fin 128, X (ix2 p k) * W (ix2 k q) := by
  subst hX hW
  rw [region4_arr]
  rfl

end Cert.KernelIdeal.RegionVal

end
-- ==== Proof.RegionB5.lean ====
/-
  The last bias region as one array. The region walks ten blocks of 5000 rows of a 50000 × 128 array; at block t it
  adds the one row of a 1 × 128 array to rows 5000·t … 5000·t + 4999 and writes the block back to the same rows of the
  result. Every row lies in exactly one block (row r in block r / 5000), so entry (p, q) of the result array is
  a[p, q] + r[0, q].
-/
import proofs.«105635_j5566277616603_1_alg».proof.Proof.Gen.KernelIdeal.Frame
import proofs.«105635_j5566277616603_1_alg».proof.Proof.PayBA
import proofs.«105635_j5566277616603_1_alg».proof.Proof.ArrSpec
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices of the three windows at grid point `t`: the row-block windows sit at block `(t, 0)`, the
    one-row array at block `(0, 0)`. Decided over the ten points. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The row block at point `t` holds rows `5000·t …` of the large array. -/
theorem rows5_read (c : Dev nD) (t : Fin cfg5.N) (y : S5000x128.Idx) (i : S50000x128.Idx)
    (h0 : (i 0).val = t.val * 5000 + (y 0).val) (h1 : (i 1).val = (y 1).val) :
    (iblk5 V c 0 t : Vec Ideal S5000x128 .f32) y = (V c main_v77 : S50000x128.Idx → EReal) i := by
  obtain ⟨e0, e1, -, -, -, -⟩ := blockIdx5 t
  unfold iblk5
  rw [View.read_apply]
  show (V c main_v77 : S50000x128.Idx → EReal) _ = (V c main_v77 : S50000x128.Idx → EReal) i
  congr 1
  funext a
  apply Fin.ext
  match a with
  | ⟨0, _⟩ => show win5_0.index t (0 : Fin 2) * 5000 + 1 * (y 0).val = (i 0).val; rw [e0, h0]; omega
  | ⟨1, _⟩ => show win5_0.index t (1 : Fin 2) * 128 + 1 * (y 1).val = (i 1).val; rw [e1, h1]; omega

/-- The one-row window's block at every point is the whole one-row array. -/
theorem row5_read (c : Dev nD) (t : Fin cfg5.N) (y : S1x128.Idx) :
    (iblk5 V c 1 t : Vec Ideal S1x128 .f32) y = (V c main_v78 : S1x128.Idx → EReal) y := by
  obtain ⟨-, -, e0, e1, -, -⟩ := blockIdx5 t
  unfold iblk5
  rw [View.read_apply]
  show (V c main_v78 : S1x128.Idx → EReal) _ = (V c main_v78 : S1x128.Idx → EReal) y
  congr 1
  funext a
  apply Fin.ext
  match a with
  | ⟨0, _⟩ => show win5_1.index t (0 : Fin 2) * 1 + 1 * (y 0).val = (y 0).val; rw [e0]; omega
  | ⟨1, _⟩ => show win5_1.index t (1 : Fin 2) * 128 + 1 * (y 1).val = (y 1).val; rw [e1]; omega

/-- What point `t` writes back is block `t` of the whole array's biased rows. -/
theorem flushed5_eq (c : Dev nD) (t : Fin cfg5.N) :
    (dat5 (F := Ideal) V c).flushed 2 t
      = ((cfg5.win 2).blk t).view.read (Elt Ideal) (Cert.Spec.biasRows (fun s => s) (V c main_v77) (V c main_v78)) := by
  show (cfg5.win 2).cut (grid5.coords t) ((dat5 V c).after 2 t) = _
  rw [after5_2]
  unfold out5_2
  rw [View.canon_unit_zero Cert.Spec.zeroOff]
  simp only [View.ld_unit_zero (S := S5000x128) Cert.Spec.zeroOff, View.ld_unit_zero (S := S1x128) Cert.Spec.zeroOff]
  obtain ⟨-, -, -, -, e0, e1⟩ := blockIdx5 t
  funext j
  refine Cert.Spec.biasRows_block (fun s => s) (k5_pay1 (F := Ideal)) k5_pay1_apply (V c main_v77) (V c main_v78) (iblk5 V c 0 t) (iblk5 V c 1 t) t.val
    (rows5_read V c t) (funext (row5_read V c t)) j (((cfg5.win 2).blk t).view.emb j) ?_ ?_
  · show win5_2.index t (0 : Fin 2) * 5000 + 1 * (j 0).val = t.val * 5000 + (j 0).val; rw [e0]; omega
  · show win5_2.index t (1 : Fin 2) * 128 + 1 * (j 1).val = (j 1).val; rw [e1]; omega

/-- An index of the result array is in point `t`'s block iff each coordinate is in the block's range on its axis. -/
theorem mem_block5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v79).slice (win5_2.rect t)).set ↔ _
  rw [View.set_slice_whole, Rect.mem_set_unit]
  exact Iff.rfl

/-- Every index of the result array is in some point's block: row `r` in block `r / 5000`. -/
theorem covered5 (i : S50000x128.Idx) :
    ∃ t : Fin cfg5.N, (cfg5.win 2).flush t = true ∧ i ∈ ((cfg5.win 2).blk t).view.set := by
  have hN : grid5.N = 10 := N_5
  have hi0 : (i 0).val < 50000 := (i 0).isLt
  have hi1 : (i 1).val < 128 := (i 1).isLt
  let t : Fin cfg5.N := ⟨(i 0).val / 5000, by show (i 0).val / 5000 < grid5.N; rw [hN]; omega⟩
  obtain ⟨-, -, -, -, e0, e1⟩ := blockIdx5 t
  have ht : t.val = (i 0).val / 5000 := rfl
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; rw [e0, ht]; omega
  | ⟨1, _⟩ => show win5_2.index t (1 : Fin 2) * 128 ≤ (i 1).val ∧ (i 1).val < win5_2.index t (1 : Fin 2) * 128 + 128; rw [e1]; omega

/-- The result array after the region: every row plus the one row. -/
theorem region5_arr (c : Dev nD) :
    (dat5 (F := Ideal) V c).arrAt 2 cfg5.N = Cert.Spec.biasRows (fun s => s) (V c main_v77) (V c main_v78) :=
  (dat5 (F := Ideal) V c).arrAt_eq_of_cover 2 (Cert.Spec.biasRows (fun s => s) (V c main_v77) (V c main_v78))
    (fun t _ => flushed5_eq V c t) covered5

/-- Entry `(p, q)` of the result array after the region, the two operand arrays named `A` and `R`. -/
theorem region5_val (c : Dev nD) (A : FVec Ideal S50000x128 .f32) (R : FVec Ideal S1x128 .f32)
    (hA : V c main_v77 = A) (hR : V c main_v78 = R) (p : Fin 50000) (q : Fin 128) :
    (dat5 (F := Ideal) V c).arrAt 2 cfg5.N (ix2 p q) = A (ix2 p q) + R (ix2 (0 : Fin 1) q) := by
  subst hA hR
  rw [region5_arr]
  rfl

end Cert.KernelIdeal.RegionVal

end
-- ==== Proof.Bridge.lean ====
/-
  The two programs compute the same arrays.

  Both programs are run from memories that agree on the nine arguments. The reference is a line of fourteen stages; the
  kernel program is stretches of the same host operations around six grid regions. Walking the two in step, each value
  the kernel program produces equals the value the reference produces at the matching point: the edge lists and the
  edges' coefficients (the same operations of the edge index); each layer's product (the regions' blocks of rows
  assemble the whole matrix product, which at the ideal instance is the host's product: both are the sum over k of
  x[p,k]·w[k,q], the casts to a narrower format being the identity); each layer's message sums (the same operations of
  equal inputs); each layer's bias and activation (entry by entry A[p,q] + b[q], and the select on "> 0" against the
  host's select on "≥ 0" differ only at 0, where both give 0); and the pooling (the same operations again).
-/
import proofs.«105635_j5566277616603_1_alg».proof.Proof.StageSim
import proofs.«105635_j5566277616603_1_alg».proof.Proof.StageAct
import proofs.«105635_j5566277616603_1_alg».proof.Proof.ChainRef
import proofs.«105635_j5566277616603_1_alg».proof.Proof.ChainK
import proofs.«105635_j5566277616603_1_alg».proof.Proof.LibAfterAppend
import proofs.«105635_j5566277616603_1_alg».proof.Proof.LibDotRead
import proofs.«105635_j5566277616603_1_alg».proof.Proof.ArrSpec
import proofs.«105635_j5566277616603_1_alg».proof.Proof.RegionMM0
import proofs.«105635_j5566277616603_1_alg».proof.Proof.RegionBA1
import proofs.«105635_j5566277616603_1_alg».proof.Proof.RegionMM2
import proofs.«105635_j5566277616603_1_alg».proof.Proof.RegionBA3
import proofs.«105635_j5566277616603_1_alg».proof.Proof.RegionMM4
import proofs.«105635_j5566277616603_1_alg».proof.Proof.RegionB5

noncomputable section

namespace Cert.Bridge

open Idealize.ShloMosaic Idealize.ShloMosaic.TcCoe Idealize.SL.Sem Idealize.ShloMosaic.StableHlo Idealize.ShloMosaic.ValueIdx
open Cert.KernelIdeal.Gen (W0 W1 W2 W3 W4 W5 W6 W7 W8 W9 W10 W11 W12 W13 W14 W15 V3 V5 V6 V8 V9 V11)
open Cert.Sim (Arr)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's buffers at its launch, on the core `c`. -/
abbrev R0 : Valuation Cert.ReferenceIdeal.τ Cert.ReferenceIdeal.sig (Elt Ideal) := launchContents m' c
/-- … and after the stage `opsA`. -/
abbrev RA : Valuation Cert.ReferenceIdeal.τ Cert.ReferenceIdeal.sig (Elt Ideal) := after (Cert.ReferenceIdeal.RefOps.opsA (F := Ideal)) (R0 m' c)
/-- … and after the stage `ops1d`. -/
abbrev R1d : Valuation Cert.ReferenceIdeal.τ Cert.ReferenceIdeal.sig (Elt Ideal) := after (Cert.ReferenceIdeal.RefOps.ops1d (F := Ideal)) (RA m' c)
/-- … and after the stage `ops1n`. -/
abbrev R1n : Valuation Cert.ReferenceIdeal.τ Cert.ReferenceIdeal.sig (Elt Ideal) := after (Cert.ReferenceIdeal.RefOps.ops1n (F := Ideal)) (R1d m' c)
/-- … and after the stage `ops1g`. -/
abbrev R1g : Valuation Cert.ReferenceIdeal.τ Cert.ReferenceIdeal.sig (Elt Ideal) := after (Cert.ReferenceIdeal.RefOps.ops1g (F := Ideal)) (R1n m' c)
/-- … and after the stage `ops1b`. -/
abbrev R1b : Valuation Cert.ReferenceIdeal.τ Cert.ReferenceIdeal.sig (Elt Ideal) := after (Cert.ReferenceIdeal.RefOps.ops1b (F := Ideal)) (R1g m' c)
/-- … and after the stage `ops2d`. -/
abbrev R2d : Valuation Cert.ReferenceIdeal.τ Cert.ReferenceIdeal.sig (Elt Ideal) := after (Cert.ReferenceIdeal.RefOps.ops2d (F := Ideal)) (R1b m' c)
/-- … and after the stage `ops2n`. -/
abbrev R2n : Valuation Cert.ReferenceIdeal.τ Cert.ReferenceIdeal.sig (Elt Ideal) := after (Cert.ReferenceIdeal.RefOps.ops2n (F := Ideal)) (R2d m' c)
/-- … and after the stage `ops2g`. -/
abbrev R2g : Valuation Cert.ReferenceIdeal.τ Cert.ReferenceIdeal.sig (Elt Ideal) := after (Cert.ReferenceIdeal.RefOps.ops2g (F := Ideal)) (R2n m' c)
/-- … and after the stage `ops2b`. -/
abbrev R2b : Valuation Cert.ReferenceIdeal.τ Cert.ReferenceIdeal.sig (Elt Ideal) := after (Cert.ReferenceIdeal.RefOps.ops2b (F := Ideal)) (R2g m' c)
/-- … and after the stage `ops3d`. -/
abbrev R3d : Valuation Cert.ReferenceIdeal.τ Cert.ReferenceIdeal.sig (Elt Ideal) := after (Cert.ReferenceIdeal.RefOps.ops3d (F := Ideal)) (R2b m' c)
/-- … and after the stage `ops3n`. -/
abbrev R3n : Valuation Cert.ReferenceIdeal.τ Cert.ReferenceIdeal.sig (Elt Ideal) := after (Cert.ReferenceIdeal.RefOps.ops3n (F := Ideal)) (R3d m' c)
/-- … and after the stage `ops3g`. -/
abbrev R3g : Valuation Cert.ReferenceIdeal.τ Cert.ReferenceIdeal.sig (Elt Ideal) := after (Cert.ReferenceIdeal.RefOps.ops3g (F := Ideal)) (R3n m' c)
/-- … and after the stage `ops3b`. -/
abbrev R3b : Valuation Cert.ReferenceIdeal.τ Cert.ReferenceIdeal.sig (Elt Ideal) := after (Cert.ReferenceIdeal.RefOps.ops3b (F := Ideal)) (R3g m' c)
/-- … and after the stage `opsP`. -/
abbrev RP : Valuation Cert.ReferenceIdeal.τ Cert.ReferenceIdeal.sig (Elt Ideal) := after (Cert.ReferenceIdeal.RefOps.opsP (F := Ideal)) (R3b m' c)

/-! ## The host's product is the sum of products -/

/-- At the ideal instance the host's product of a 50000 × 128 by a 128 × 128 array is, entry by entry, the sum over the
    contracted index of the products of the entries. -/
theorem dot_eq_matProd (X : FVec Ideal Cert.ReferenceIdeal.S50000x128 .f32) (Wt : FVec Ideal Cert.ReferenceIdeal.S128x128 .f32) :
    Host.dotGeneral (F := Ideal) Cert.ReferenceIdeal.dot_S50000x128_S128x128_S50000x128_1_0_0_1_n_n none X Wt = Cert.Spec.matProd X Wt := by
  funext j
  obtain ⟨p, q, rfl⟩ : ∃ (p : Fin 50000) (q : Fin 128), j = ix2 p q := ⟨j 0, j 1, eq_ix2 (n0 := 50000) (n1 := 128) j⟩
  exact (Idealize.ShloMosaic.MatmulRead.hostDot_ix2 ⟨rfl, rfl, rfl, rfl, rfl, rfl⟩ rfl rfl none X Wt p q).trans
    (Cert.Spec.matProd_ix2 X Wt p q).symm

/-- Two arrays of 50000 × 128 entries that agree at every entry `(p, q)` are equal. -/
theorem ext_ix2 (A B : FVec Ideal Cert.KernelIdeal.S50000x128 .f32) (h : ∀ (p : Fin 50000) (q : Fin 128), A (ix2 p q) = B (ix2 p q)) : A = B := by
  funext j
  obtain ⟨p, q, rfl⟩ : ∃ (p : Fin 50000) (q : Fin 128), j = ix2 p q := ⟨j 0, j 1, eq_ix2 (n0 := 50000) (n1 := 128) j⟩
  exact h p q

/-- The reference's line run stage by stage is the line run whole. -/
theorem whole_line : after (Cert.ReferenceIdeal.RefOps.ops (F := Ideal)) (R0 m' c) = RP m' c := by
  simp only [Cert.ReferenceIdeal.RefOps.ops, Cert.LibAfter.after_append]

variable (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
include hagree

/-! ## Before the first region -/

/-- The edge index is the same array in both memories. -/
theorem edge_index : (R0 m' c (Proc.devRef .tc Cert.ReferenceIdeal.main_arg7) : Arr Cert.KernelIdeal.S2x800000 .i32) = W0 m ρ c (Proc.devRef .tc Cert.KernelIdeal.main_arg7) :=
  (hagree c).2.2.2.2.2.2.2.1

/-- The source lists agree. -/
theorem row3 : (RA m' c (Proc.devRef .tc Cert.ReferenceIdeal.main_v3) : Arr Cert.KernelIdeal.S850000 .i32) = W3 m ρ c (Proc.devRef .tc Cert.KernelIdeal.main_v3) :=
  Cert.Sim.edges_row (R0 m' c) (W0 m ρ c) (edge_index m ρ m' c hagree)

/-- The target lists agree. -/
theorem col3 : (RA m' c (Proc.devRef .tc Cert.ReferenceIdeal.main_v6) : Arr Cert.KernelIdeal.S850000 .i32) = W3 m ρ c (Proc.devRef .tc Cert.KernelIdeal.main_v6) :=
  Cert.Sim.edges_col (R0 m' c) (W0 m ρ c) (edge_index m ρ m' c hagree)

/-- The coefficients the reference would compute right after the edge lists are the kernel program's. -/
theorem coeff3 : (after (Cert.ReferenceIdeal.RefOps.ops1n (F := Ideal)) (RA m' c) (Proc.devRef .tc Cert.ReferenceIdeal.main_v32) : Arr Cert.KernelIdeal.S850000 .f32)
      = W3 m ρ c (Proc.devRef .tc Cert.KernelIdeal.main_v31) :=
  Cert.Sim.coeff (R0 m' c) (W0 m ρ c) (edge_index m ρ m' c hagree)

/-! ## Layer 1 -/

/-- Argument 0 as the reference reads it (after the stage before) and as the kernel program reads it (at boundary 3). -/
theorem arg0_eq : (RA m' c (Proc.devRef .tc Cert.ReferenceIdeal.main_arg0) : FVec Ideal Cert.KernelIdeal.S50000x128 .f32) = W3 m ρ c (Proc.devRef .tc Cert.KernelIdeal.main_arg0) :=
  (Cert.ReferenceIdeal.Keep.arg0_thru_A (R0 m' c)).trans (((hagree c).1).trans (Cert.KernelIdeal.KKeep.args3 m ρ c _ (by simp)).symm)

/-- Argument 1 as the reference reads it (after the stage before) and as the kernel program reads it (at boundary 3). -/
theorem arg1_eq : (RA m' c (Proc.devRef .tc Cert.ReferenceIdeal.main_arg1) : FVec Ideal Cert.KernelIdeal.S128x128 .f32) = W3 m ρ c (Proc.devRef .tc Cert.KernelIdeal.main_arg1) :=
  (Cert.ReferenceIdeal.Keep.arg1_thru_A (R0 m' c)).trans (((hagree c).2.1).trans (Cert.KernelIdeal.KKeep.args3 m ρ c _ (by simp)).symm)

/-- Argument 2 as the reference reads it (after the stage before) and as the kernel program reads it (at boundary 4). -/
theorem arg2_eq : (R1g m' c (Proc.devRef .tc Cert.ReferenceIdeal.main_arg2) : FVec Ideal Cert.KernelIdeal.S128 .f32) = W4 m ρ c (Proc.devRef .tc Cert.KernelIdeal.main_arg2) :=
  (Cert.ReferenceIdeal.Keep.arg2_thru_1g (R0 m' c)).trans (((hagree c).2.2.1).trans (Cert.KernelIdeal.KKeep.args4 m ρ c _ (by simp)).symm)

/-- Layer 1's product: the region's blocks assemble the whole matrix product, which is the host's. -/
theorem prod1 : (R1d m' c (Proc.devRef .tc Cert.ReferenceIdeal.main_v7) : Arr Cert.KernelIdeal.S50000x128 .f32) = W4 m ρ c (Proc.devRef .tc Cert.KernelIdeal.main_v32) := by
  have hx : (RA m' c (Proc.devRef .tc Cert.ReferenceIdeal.main_arg0) : FVec Ideal Cert.KernelIdeal.S50000x128 .f32) = W3 m ρ c (Proc.devRef .tc Cert.KernelIdeal.main_arg0) := arg0_eq m ρ m' c hagree
  have hw : (RA m' c (Proc.devRef .tc Cert.ReferenceIdeal.main_arg1) : FVec Ideal Cert.KernelIdeal.S128x128 .f32) = W3 m ρ c (Proc.devRef .tc Cert.KernelIdeal.main_arg1) := arg1_eq m ρ m' c hagree
  have hk : W4 m ρ c (Proc.devRef .tc Cert.KernelIdeal.main_v32) = Cert.Spec.matProd (W3 m ρ c (Proc.devRef .tc Cert.KernelIdeal.main_arg0)) (W3 m ρ c (Proc.devRef .tc Cert.KernelIdeal.main_arg1)) :=
    (Cert.KernelIdeal.Gen.W4_arr m ρ c 2).trans (Cert.KernelIdeal.RegionVal.region0_arr (V3 m ρ) c)
  have hr := Cert.Sim.dot1 (RA m' c) _ _ rfl rfl
  rw [dot_eq_matProd] at hr
  exact hr.symm.trans ((congrArg₂ Cert.Spec.matProd hx hw).trans hk.symm)

/-- The coefficients at layer 1's message sums. -/
theorem coeff1 : (R1n m' c (Proc.devRef .tc Cert.ReferenceIdeal.main_v32) : Arr Cert.KernelIdeal.S850000 .f32) = W4 m ρ c (Proc.devRef .tc Cert.KernelIdeal.main_v31) :=
  (Cert.Sim.coeff_same1 (R1d m' c) (RA m' c) (Cert.ReferenceIdeal.Keep.v3_thru_1d (RA m' c)) (Cert.ReferenceIdeal.Keep.v6_thru_1d (RA m' c))).trans
    ((coeff3 m ρ m' c hagree).trans (Cert.KernelIdeal.KKeep.live4 m ρ c _ (by simp)).symm)

/-- Layer 1's message sums: the same operations of equal edge lists, coefficients and products. -/
theorem msg1 : (R1g m' c (Proc.devRef .tc Cert.ReferenceIdeal.main_v45) : Arr Cert.KernelIdeal.S50000x128 .f32) = W5 m ρ c (Proc.devRef .tc Cert.KernelIdeal.main_v45) :=
  Cert.Sim.sums1 (R1n m' c) (W4 m ρ c)
    ((Cert.ReferenceIdeal.Keep.v3_thru_1n (RA m' c)).trans ((row3 m ρ m' c hagree).trans (Cert.KernelIdeal.KKeep.live4 m ρ c _ (by simp)).symm))
    ((Cert.ReferenceIdeal.Keep.v6_thru_1n (RA m' c)).trans ((col3 m ρ m' c hagree).trans (Cert.KernelIdeal.KKeep.live4 m ρ c _ (by simp)).symm))
    (coeff1 m ρ m' c hagree)
    ((Cert.ReferenceIdeal.Keep.v7_thru_1n (R1d m' c)).trans (prod1 m ρ m' c hagree))

/-- Layer 1's bias and activation: entry by entry the message sum plus the bias entry, through the leaky rectifier. -/
theorem act1 : (R1b m' c (Proc.devRef .tc Cert.ReferenceIdeal.main_v49) : FVec Ideal Cert.KernelIdeal.S50000x128 .f32) = W6 m ρ c (Proc.devRef .tc Cert.KernelIdeal.main_v47) := by
  have hA : (R1g m' c (Proc.devRef .tc Cert.ReferenceIdeal.main_v45) : FVec Ideal Cert.KernelIdeal.S50000x128 .f32) = W5 m ρ c (Proc.devRef .tc Cert.KernelIdeal.main_v45) := msg1 m ρ m' c hagree
  have hb : (R1g m' c (Proc.devRef .tc Cert.ReferenceIdeal.main_arg2) : FVec Ideal Cert.KernelIdeal.S128 .f32) = W4 m ρ c (Proc.devRef .tc Cert.KernelIdeal.main_arg2) := arg2_eq m ρ m' c hagree
  have hk : W6 m ρ c (Proc.devRef .tc Cert.KernelIdeal.main_v47) = Cert.Spec.biasRows Cert.Spec.lrelu (W5 m ρ c (Proc.devRef .tc Cert.KernelIdeal.main_v45)) (W5 m ρ c (Proc.devRef .tc Cert.KernelIdeal.main_v46)) :=
    (Cert.KernelIdeal.Gen.W6_arr m ρ c 2).trans (Cert.KernelIdeal.RegionVal.region1_arr (V5 m ρ) c)
  have hr := Cert.Sim.act1 (R1g m' c) _ _ rfl rfl
  rw [hk]
  refine Eq.trans hr.symm (ext_ix2 _ _ fun p q => ?_)
  rw [Cert.Spec.biasRows_ix2, Cert.HostSpec.hostLeaky_apply, Cert.HostSpec.hostBias_ix2, hA, hb]
  have hrow : (W5 m ρ c (Proc.devRef .tc Cert.KernelIdeal.main_v46) : FVec Ideal Cert.KernelIdeal.S1x128 .f32) (ix2 (0 : Fin 1) q)
      = (W4 m ρ c (Proc.devRef .tc Cert.KernelIdeal.main_arg2) : FVec Ideal Cert.KernelIdeal.S128 .f32) (ix1 q) := Cert.Sim.row1 (W4 m ρ c) _ rfl _ rfl q
  rw [hrow]

/-! ## Layer 2 -/

/-- Argument 3 as the reference reads it (after the stage before) and as the kernel program reads it (at boundary 6). -/
theorem arg3_eq : (R1b m' c (Proc.devRef .tc Cert.ReferenceIdeal.main_arg3) : FVec Ideal Cert.KernelIdeal.S128x128 .f32) = W6 m ρ c (Proc.devRef .tc Cert.KernelIdeal.main_arg3) :=
  (Cert.ReferenceIdeal.Keep.arg3_thru_1b (R0 m' c)).trans (((hagree c).2.2.2.1).trans (Cert.KernelIdeal.KKeep.args6 m ρ c _ (by simp)).symm)

/-- Argument 4 as the reference reads it (after the stage before) and as the kernel program reads it (at boundary 7). -/
theorem arg4_eq : (R2g m' c (Proc.devRef .tc Cert.ReferenceIdeal.main_arg4) : FVec Ideal Cert.KernelIdeal.S128 .f32) = W7 m ρ c (Proc.devRef .tc Cert.KernelIdeal.main_arg4) :=
  (Cert.ReferenceIdeal.Keep.arg4_thru_2g (R0 m' c)).trans (((hagree c).2.2.2.2.1).trans (Cert.KernelIdeal.KKeep.args7 m ρ c _ (by simp)).symm)

/-- Layer 2's product: the region's blocks assemble the whole matrix product, which is the host's. -/
theorem prod2 : (R2d m' c (Proc.devRef .tc Cert.ReferenceIdeal.main_v50) : Arr Cert.KernelIdeal.S50000x128 .f32) = W7 m ρ c (Proc.devRef .tc Cert.KernelIdeal.main_v48) := by
  have hx : (R1b m' c (Proc.devRef .tc Cert.ReferenceIdeal.main_v49) : FVec Ideal Cert.KernelIdeal.S50000x128 .f32) = W6 m ρ c (Proc.devRef .tc Cert.KernelIdeal.main_v47) := act1 m ρ m' c hagree
  have hw : (R1b m' c (Proc.devRef .tc Cert.ReferenceIdeal.main_arg3) : FVec Ideal Cert.KernelIdeal.S128x128 .f32) = W6 m ρ c (Proc.devRef .tc Cert.KernelIdeal.main_arg3) := arg3_eq m ρ m' c hagree
  have hk : W7 m ρ c (Proc.devRef .tc Cert.KernelIdeal.main_v48) = Cert.Spec.matProd (W6 m ρ c (Proc.devRef .tc Cert.KernelIdeal.main_v47)) (W6 m ρ c (Proc.devRef .tc Cert.KernelIdeal.main_arg3)) :=
    (Cert.KernelIdeal.Gen.W7_arr m ρ c 2).trans (Cert.KernelIdeal.RegionVal.region2_arr (V6 m ρ) c)
  have hr := Cert.Sim.dot2 (R1b m' c) _ _ rfl rfl
  rw [dot_eq_matProd] at hr
  exact hr.symm.trans ((congrArg₂ Cert.Spec.matProd hx hw).trans hk.symm)

/-- The coefficients recomputed by the reference for layer 2 are the ones the kernel program kept. -/
theorem coeff2 : (R2n m' c (Proc.devRef .tc Cert.ReferenceIdeal.main_v75) : Arr Cert.KernelIdeal.S850000 .f32) = W7 m ρ c (Proc.devRef .tc Cert.KernelIdeal.main_v31) :=
  (Cert.Sim.coeff_same2 (R2d m' c) (RA m' c) (Cert.ReferenceIdeal.Keep.v3_thru_2d (RA m' c)) (Cert.ReferenceIdeal.Keep.v6_thru_2d (RA m' c))).trans
    ((coeff3 m ρ m' c hagree).trans (Cert.KernelIdeal.KKeep.live7 m ρ c _ (by simp)).symm)

/-- Layer 2's message sums: the same operations of equal edge lists, coefficients and products. -/
theorem msg2 : (R2g m' c (Proc.devRef .tc Cert.ReferenceIdeal.main_v88) : Arr Cert.KernelIdeal.S50000x128 .f32) = W8 m ρ c (Proc.devRef .tc Cert.KernelIdeal.main_v61) :=
  Cert.Sim.sums2 (R2n m' c) (W7 m ρ c)
    ((Cert.ReferenceIdeal.Keep.v3_thru_2n (RA m' c)).trans ((row3 m ρ m' c hagree).trans (Cert.KernelIdeal.KKeep.live7 m ρ c _ (by simp)).symm))
    ((Cert.ReferenceIdeal.Keep.v6_thru_2n (RA m' c)).trans ((col3 m ρ m' c hagree).trans (Cert.KernelIdeal.KKeep.live7 m ρ c _ (by simp)).symm))
    (coeff2 m ρ m' c hagree)
    ((Cert.ReferenceIdeal.Keep.v50_thru_2n (R2d m' c)).trans (prod2 m ρ m' c hagree))

/-- Layer 2's bias and activation: entry by entry the message sum plus the bias entry, through the leaky rectifier. -/
theorem act2 : (R2b m' c (Proc.devRef .tc Cert.ReferenceIdeal.main_v92) : FVec Ideal Cert.KernelIdeal.S50000x128 .f32) = W9 m ρ c (Proc.devRef .tc Cert.KernelIdeal.main_v63) := by
  have hA : (R2g m' c (Proc.devRef .tc Cert.ReferenceIdeal.main_v88) : FVec Ideal Cert.KernelIdeal.S50000x128 .f32) = W8 m ρ c (Proc.devRef .tc Cert.KernelIdeal.main_v61) := msg2 m ρ m' c hagree
  have hb : (R2g m' c (Proc.devRef .tc Cert.ReferenceIdeal.main_arg4) : FVec Ideal Cert.KernelIdeal.S128 .f32) = W7 m ρ c (Proc.devRef .tc Cert.KernelIdeal.main_arg4) := arg4_eq m ρ m' c hagree
  have hk : W9 m ρ c (Proc.devRef .tc Cert.KernelIdeal.main_v63) = Cert.Spec.biasRows Cert.Spec.lrelu (W8 m ρ c (Proc.devRef .tc Cert.KernelIdeal.main_v61)) (W8 m ρ c (Proc.devRef .tc Cert.KernelIdeal.main_v62)) :=
    (Cert.KernelIdeal.Gen.W9_arr m ρ c 2).trans (Cert.KernelIdeal.RegionVal.region3_arr (V8 m ρ) c)
  have hr := Cert.Sim.act2 (R2g m' c) _ _ rfl rfl
  rw [hk]
  refine Eq.trans hr.symm (ext_ix2 _ _ fun p q => ?_)
  rw [Cert.Spec.biasRows_ix2, Cert.HostSpec.hostLeaky_apply, Cert.HostSpec.hostBias_ix2, hA, hb]
  have hrow : (W8 m ρ c (Proc.devRef .tc Cert.KernelIdeal.main_v62) : FVec Ideal Cert.KernelIdeal.S1x128 .f32) (ix2 (0 : Fin 1) q)
      = (W7 m ρ c (Proc.devRef .tc Cert.KernelIdeal.main_arg4) : FVec Ideal Cert.KernelIdeal.S128 .f32) (ix1 q) := Cert.Sim.row2 (W7 m ρ c) _ rfl _ rfl q
  rw [hrow]

/-! ## Layer 3 -/

/-- Argument 5 as the reference reads it (after the stage before) and as the kernel program reads it (at boundary 9). -/
theorem arg5_eq : (R2b m' c (Proc.devRef .tc Cert.ReferenceIdeal.main_arg5) : FVec Ideal Cert.KernelIdeal.S128x128 .f32) = W9 m ρ c (Proc.devRef .tc Cert.KernelIdeal.main_arg5) :=
  (Cert.ReferenceIdeal.Keep.arg5_thru_2b (R0 m' c)).trans (((hagree c).2.2.2.2.2.1).trans (Cert.KernelIdeal.KKeep.args9 m ρ c _ (by simp)).symm)

/-- Argument 6 as the reference reads it (after the stage before) and as the kernel program reads it (at boundary 10). -/
theorem arg6_eq : (R3g m' c (Proc.devRef .tc Cert.ReferenceIdeal.main_arg6) : FVec Ideal Cert.KernelIdeal.S128 .f32) = W10 m ρ c (Proc.devRef .tc Cert.KernelIdeal.main_arg6) :=
  (Cert.ReferenceIdeal.Keep.arg6_thru_3g (R0 m' c)).trans (((hagree c).2.2.2.2.2.2.1).trans (Cert.KernelIdeal.KKeep.args10 m ρ c _ (by simp)).symm)

/-- Argument 8 as the reference reads it (after the stage before) and as the kernel program reads it (at boundary 12). -/
theorem arg8_eq : (R3b m' c (Proc.devRef .tc Cert.ReferenceIdeal.main_arg8) : Arr Cert.KernelIdeal.S50000 .i32) = W12 m ρ c (Proc.devRef .tc Cert.KernelIdeal.main_arg8) :=
  (Cert.ReferenceIdeal.Keep.arg8_thru_3b (R0 m' c)).trans (((hagree c).2.2.2.2.2.2.2.2).trans (Cert.KernelIdeal.KKeep.args12 m ρ c _ (by simp)).symm)

/-- Layer 3's product: the region's blocks assemble the whole matrix product, which is the host's. -/
theorem prod3 : (R3d m' c (Proc.devRef .tc Cert.ReferenceIdeal.main_v93) : Arr Cert.KernelIdeal.S50000x128 .f32) = W10 m ρ c (Proc.devRef .tc Cert.KernelIdeal.main_v64) := by
  have hx : (R2b m' c (Proc.devRef .tc Cert.ReferenceIdeal.main_v92) : FVec Ideal Cert.KernelIdeal.S50000x128 .f32) = W9 m ρ c (Proc.devRef .tc Cert.KernelIdeal.main_v63) := act2 m ρ m' c hagree
  have hw : (R2b m' c (Proc.devRef .tc Cert.ReferenceIdeal.main_arg5) : FVec Ideal Cert.KernelIdeal.S128x128 .f32) = W9 m ρ c (Proc.devRef .tc Cert.KernelIdeal.main_arg5) := arg5_eq m ρ m' c hagree
  have hk : W10 m ρ c (Proc.devRef .tc Cert.KernelIdeal.main_v64) = Cert.Spec.matProd (W9 m ρ c (Proc.devRef .tc Cert.KernelIdeal.main_v63)) (W9 m ρ c (Proc.devRef .tc Cert.KernelIdeal.main_arg5)) :=
    (Cert.KernelIdeal.Gen.W10_arr m ρ c 2).trans (Cert.KernelIdeal.RegionVal.region4_arr (V9 m ρ) c)
  have hr := Cert.Sim.dot3 (R2b m' c) _ _ rfl rfl
  rw [dot_eq_matProd] at hr
  exact hr.symm.trans ((congrArg₂ Cert.Spec.matProd hx hw).trans hk.symm)

/-- The coefficients recomputed for layer 3 likewise. -/
theorem coeff3' : (R3n m' c (Proc.devRef .tc Cert.ReferenceIdeal.main_v118) : Arr Cert.KernelIdeal.S850000 .f32) = W10 m ρ c (Proc.devRef .tc Cert.KernelIdeal.main_v31) :=
  (Cert.Sim.coeff_same3 (R3d m' c) (RA m' c) (Cert.ReferenceIdeal.Keep.v3_thru_3d (RA m' c)) (Cert.ReferenceIdeal.Keep.v6_thru_3d (RA m' c))).trans
    ((coeff3 m ρ m' c hagree).trans (Cert.KernelIdeal.KKeep.live10 m ρ c _ (by simp)).symm)

/-- Layer 3's message sums: the same operations of equal edge lists, coefficients and products. -/
theorem msg3 : (R3g m' c (Proc.devRef .tc Cert.ReferenceIdeal.main_v131) : Arr Cert.KernelIdeal.S50000x128 .f32) = W11 m ρ c (Proc.devRef .tc Cert.KernelIdeal.main_v77) :=
  Cert.Sim.sums3 (R3n m' c) (W10 m ρ c)
    ((Cert.ReferenceIdeal.Keep.v3_thru_3n (RA m' c)).trans ((row3 m ρ m' c hagree).trans (Cert.KernelIdeal.KKeep.live10 m ρ c _ (by simp)).symm))
    ((Cert.ReferenceIdeal.Keep.v6_thru_3n (RA m' c)).trans ((col3 m ρ m' c hagree).trans (Cert.KernelIdeal.KKeep.live10 m ρ c _ (by simp)).symm))
    (coeff3' m ρ m' c hagree)
    ((Cert.ReferenceIdeal.Keep.v93_thru_3n (R3d m' c)).trans (prod3 m ρ m' c hagree))

/-- Layer 3's bias: entry by entry the message sum plus the bias entry. -/
theorem act3 : (R3b m' c (Proc.devRef .tc Cert.ReferenceIdeal.main_v134) : FVec Ideal Cert.KernelIdeal.S50000x128 .f32) = W12 m ρ c (Proc.devRef .tc Cert.KernelIdeal.main_v79) := by
  have hA : (R3g m' c (Proc.devRef .tc Cert.ReferenceIdeal.main_v131) : FVec Ideal Cert.KernelIdeal.S50000x128 .f32) = W11 m ρ c (Proc.devRef .tc Cert.KernelIdeal.main_v77) := msg3 m ρ m' c hagree
  have hb : (R3g m' c (Proc.devRef .tc Cert.ReferenceIdeal.main_arg6) : FVec Ideal Cert.KernelIdeal.S128 .f32) = W10 m ρ c (Proc.devRef .tc Cert.KernelIdeal.main_arg6) := arg6_eq m ρ m' c hagree
  have hk : W12 m ρ c (Proc.devRef .tc Cert.KernelIdeal.main_v79) = Cert.Spec.biasRows (fun s => s) (W11 m ρ c (Proc.devRef .tc Cert.KernelIdeal.main_v77)) (W11 m ρ c (Proc.devRef .tc Cert.KernelIdeal.main_v78)) :=
    (Cert.KernelIdeal.Gen.W12_arr m ρ c 2).trans (Cert.KernelIdeal.RegionVal.region5_arr (V11 m ρ) c)
  have hr := Cert.Sim.act3 (R3g m' c) _ _ rfl rfl
  rw [hk]
  refine Eq.trans hr.symm (ext_ix2 _ _ fun p q => ?_)
  rw [Cert.Spec.biasRows_ix2, Cert.HostSpec.hostBias_ix2, hA, hb]
  have hrow : (W11 m ρ c (Proc.devRef .tc Cert.KernelIdeal.main_v78) : FVec Ideal Cert.KernelIdeal.S1x128 .f32) (ix2 (0 : Fin 1) q)
      = (W10 m ρ c (Proc.devRef .tc Cert.KernelIdeal.main_arg6) : FVec Ideal Cert.KernelIdeal.S128 .f32) (ix1 q) := Cert.Sim.row3 (W10 m ρ c) _ rfl _ rfl q
  rw [hrow]

/-! ## The pooling, and the whole line -/

/-- The first result: the embedding of each graph's first node. -/
theorem first_node : (after (Cert.ReferenceIdeal.RefOps.ops (F := Ideal)) (R0 m' c) (Proc.devRef .tc Cert.ReferenceIdeal.main_v152) : Arr Cert.KernelIdeal.S64x128 .f32)
      = W15 m ρ c (Proc.devRef .tc Cert.KernelIdeal.main_v97) :=
  (congrFun (whole_line m' c) (Proc.devRef .tc Cert.ReferenceIdeal.main_v152)).trans
    (Cert.Sim.pool_first (R3b m' c) (W12 m ρ c) (act3 m ρ m' c hagree) (arg8_eq m ρ m' c hagree))

/-- The second result: the sum of the embeddings over each graph's nodes. -/
theorem graph_sum : (after (Cert.ReferenceIdeal.RefOps.ops (F := Ideal)) (R0 m' c) (Proc.devRef .tc Cert.ReferenceIdeal.main_v145) : Arr Cert.KernelIdeal.S64x128 .f32)
      = W15 m ρ c (Proc.devRef .tc Cert.KernelIdeal.main_v90) :=
  (congrFun (whole_line m' c) (Proc.devRef .tc Cert.ReferenceIdeal.main_v145)).trans
    (Cert.Sim.pool_sum (R3b m' c) (W12 m ρ c) (act3 m ρ m' c hagree) (arg8_eq m ρ m' c hagree))

end Cert.Bridge

end
-- ==== Proof.lean ====
/-
  The certificate's claim: a three-layer graph convolution with pooling, written with its dense stages as grid kernels,
  against its plain reference.

  Each layer multiplies the node features by a weight matrix, gathers the product's rows along the edges (self-loops
  appended), scales each edge's row by the product of the inverse square roots of its end nodes' in-degrees, sums the rows
  into their target nodes, adds a bias and, in the first two layers, applies the leaky rectifier of slope 0.01; the result
  is pooled per graph (the first node's row, and the sum of the rows). The kernel program computes the matrix products
  and the bias-with-activation steps in grid regions over blocks of 5000 rows and everything else by the same host
  operations as the reference; it computes the edges' coefficients once where the reference recomputes them per layer.

  The three programs run and leave their arguments unchanged (the two kernel programs by their generated frame proofs, the
  reference because it is a straight line of host operations none of which writes an argument); the idealization rewrote
  nothing; and on the extended reals the two idealized programs return equal arrays: Proof/Bridge.lean walks them in step.
-/
import proofs.«105635_j5566277616603_1_alg».proof.Defs
import proofs.«105635_j5566277616603_1_alg».proof.Proof.Gen.Kernel
import proofs.«105635_j5566277616603_1_alg».proof.Proof.Gen.Kernel.Skeleton
import proofs.«105635_j5566277616603_1_alg».proof.Proof.Gen.Kernel.Launch
import proofs.«105635_j5566277616603_1_alg».proof.Proof.Gen.Kernel.Points
import proofs.«105635_j5566277616603_1_alg».proof.Proof.Gen.Kernel.Frame
import proofs.«105635_j5566277616603_1_alg».proof.Proof.Gen.KernelIdeal
import proofs.«105635_j5566277616603_1_alg».proof.Proof.Gen.KernelIdeal.Skeleton
import proofs.«105635_j5566277616603_1_alg».proof.Proof.Gen.KernelIdeal.Launch
import proofs.«105635_j5566277616603_1_alg».proof.Proof.Gen.KernelIdeal.Points
import proofs.«105635_j5566277616603_1_alg».proof.Proof.Gen.KernelIdeal.Frame
import proofs.«105635_j5566277616603_1_alg».proof.Proof.Gen.ReferenceIdeal
import proofs.«105635_j5566277616603_1_alg».proof.Proof.Gen.Pre_finite_inputs
import proofs.«105635_j5566277616603_1_alg».proof.Proof.KRun
import proofs.«105635_j5566277616603_1_alg».proof.Proof.RefRun
import proofs.«105635_j5566277616603_1_alg».proof.Proof.RefArgs
import proofs.«105635_j5566277616603_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and leaves its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs — it is a straight line of host operations — and no operation of the line writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefArgs.arg0_kept _),
     (h c Cert.ReferenceIdeal.main_arg1).trans (Cert.ReferenceIdeal.RefArgs.arg1_kept _),
     (h c Cert.ReferenceIdeal.main_arg2).trans (Cert.ReferenceIdeal.RefArgs.arg2_kept _),
     (h c Cert.ReferenceIdeal.main_arg3).trans (Cert.ReferenceIdeal.RefArgs.arg3_kept _),
     (h c Cert.ReferenceIdeal.main_arg4).trans (Cert.ReferenceIdeal.RefArgs.arg4_kept _),
     (h c Cert.ReferenceIdeal.main_arg5).trans (Cert.ReferenceIdeal.RefArgs.arg5_kept _),
     (h c Cert.ReferenceIdeal.main_arg6).trans (Cert.ReferenceIdeal.RefArgs.arg6_kept _),
     (h c Cert.ReferenceIdeal.main_arg7).trans (Cert.ReferenceIdeal.RefArgs.arg7_kept _),
     (h c Cert.ReferenceIdeal.main_arg8).trans (Cert.ReferenceIdeal.RefArgs.arg8_kept _)⟩)
    (Cert.ReferenceIdeal.RefRun.run (F := Ideal) m ρ)

/-- From memories that agree on the arguments both idealized programs run, and they return the same two arrays — the
    contents the kernel program's last segment boundary holds at its result buffers. -/
theorem algebraic : Cert.algebraic_KernelIdeal_ReferenceIdeal := by
  intro m ρ m' ρ' _ hagree
  refine ⟨fun c => Cert.KernelIdeal.Gen.W15 m ρ c (Proc.devRef .tc Cert.KernelIdeal.main_v97),
    fun c => Cert.KernelIdeal.Gen.W15 m ρ c (Proc.devRef .tc Cert.KernelIdeal.main_v90),
    Cert.KernelIdeal.KRun.run (F := Ideal) m ρ, ?_⟩
  exact (θ_run Cert.ReferenceIdeal.defs _ _).mono (fun r h c =>
    ⟨(h c Cert.ReferenceIdeal.main_v152).trans (Cert.Bridge.first_node m ρ m' c hagree),
     (h c Cert.ReferenceIdeal.main_v145).trans (Cert.Bridge.graph_sum m ρ m' c hagree),
     (h c Cert.ReferenceIdeal.main_arg0).trans (Cert.ReferenceIdeal.RefArgs.arg0_kept _),
     (h c Cert.ReferenceIdeal.main_arg1).trans (Cert.ReferenceIdeal.RefArgs.arg1_kept _),
     (h c Cert.ReferenceIdeal.main_arg2).trans (Cert.ReferenceIdeal.RefArgs.arg2_kept _),
     (h c Cert.ReferenceIdeal.main_arg3).trans (Cert.ReferenceIdeal.RefArgs.arg3_kept _),
     (h c Cert.ReferenceIdeal.main_arg4).trans (Cert.ReferenceIdeal.RefArgs.arg4_kept _),
     (h c Cert.ReferenceIdeal.main_arg5).trans (Cert.ReferenceIdeal.RefArgs.arg5_kept _),
     (h c Cert.ReferenceIdeal.main_arg6).trans (Cert.ReferenceIdeal.RefArgs.arg6_kept _),
     (h c Cert.ReferenceIdeal.main_arg7).trans (Cert.ReferenceIdeal.RefArgs.arg7_kept _),
     (h c Cert.ReferenceIdeal.main_arg8).trans (Cert.ReferenceIdeal.RefArgs.arg8_kept _)⟩)
    (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
